-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x32 : Shape := ⟨3, ![512, 256, 32]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x131072 : Shape := ⟨2, ![1024, 131072]⟩
abbrev S131072 : Shape := ⟨1, ![131072]⟩
abbrev S_ : Shape := ⟨0, ![]⟩

class Facts : Prop where
  bcast_S_S512x256x32 : S_.BroadcastsInDim S512x256x32 (![] : Fin 0 → Fin S512x256x32.rank)
  reducesTo_S512x256x32_S_d0_1_2 : S512x256x32.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x131072 : S_.BroadcastsInDim S1024x131072 (![] : Fin 0 → Fin S1024x131072.rank)
  reducesTo_S1024x131072_S_d0_1 : S1024x131072.ReducesTo [0, 1] S_
  bcast_S_S131072 : S_.BroadcastsInDim S131072 (![] : Fin 0 → Fin S131072.rank)
  reducesTo_S131072_S_d0 : S131072.ReducesTo [0] S_

variable [Facts]

def fn_part3 {F : FTy → Type} [FloatOps F] (main_arg11 : FVec F S1024x131072 .f32) (main_arg12 : FVec F S131072 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x131072 .f32 := Host.absf main_arg11
  let main_cst_20 : FVec F S_ .f32 := constant S_ .f32 0x7F800000#32
  let main_v55 : FVec F S1024x131072 .f32 := broadcastInDim S1024x131072 ![] bcast_S_S1024x131072 main_cst_20
  let main_v56 : IVec S1024x131072 1 := cmpf .olt main_v54 main_v55
  let main_c_21 : IVec S_ 1 := constantI S_ 1 1#1
  let main_v57 : IVec S_ 1 := (fun x v => Host.reduce IntOp.andi x v reducesTo_S1024x131072_S_d0_1 h_S_) main_v56 main_c_21
  let main_v58 : IVec S_ 1 := andi main_v53 main_v57
  let main_v59 : FVec F S131072 .f32 := Host.absf main_arg12
  let main_cst_22 : FVec F S_ .f32 := constant S_ .f32 0x7F800000#32
  let main_v60 : FVec F S131072 .f32 := broadcastInDim S131072 ![] bcast_S_S131072 main_cst_22
  let main_v61 : IVec S131072 1 := cmpf .olt main_v59 main_v60
  let main_c_23 : IVec S_ 1 := constantI S_ 1 1#1
  let main_v62 : IVec S_ 1 := (fun x v => Host.reduce IntOp.andi x v reducesTo_S131072_S_d0 h_S_) main_v61 main_c_23
  let main_v63 : IVec S_ 1 := andi main_v58 main_v62
  main_v63

def fn_part2 {F : FTy → Type} [FloatOps F] (main_arg7 : FVec F S256x512 .f32) (main_arg8 : FVec F S512 .f32) (main_arg9 : FVec F S512x1024 .f32) (main_arg10 : FVec F S1024 .f32) (main_arg11 : FVec F S1024x131072 .f32) (main_arg12 : FVec F S131072 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S512 .f32) (main_arg5 : FVec F S512x256 .f32) (main_arg6 : FVec F S256 .f32) (main_arg7 : FVec F S256x512 .f32) (main_arg8 : FVec F S512 .f32) (main_arg9 : FVec F S512x1024 .f32) (main_arg10 : FVec F S1024 .f32) (main_arg11 : FVec F S1024x131072 .f32) (main_arg12 : FVec F S131072 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S512x256x32 .f32) (main_arg1 : FVec F S8192x1024 .f32) (main_arg2 : FVec F S1024 .f32) (main_arg3 : FVec F S1024x512 .f32) (main_arg4 : FVec F S512 .f32) (main_arg5 : FVec F S512x256 .f32) (main_arg6 : FVec F S256 .f32) (main_arg7 : FVec F S256x512 .f32) (main_arg8 : FVec F S512 .f32) (main_arg9 : FVec F S512x1024 .f32) (main_arg10 : FVec F S1024 .f32) (main_arg11 : FVec F S1024x131072 .f32) (main_arg12 : FVec F S131072 .f32) : IVec S_ 1 :=
  let main_v0 : FVec F S512x256x32 .f32 := Host.absf main_arg0
  let main_cst : FVec F S_ .f32 := constant S_ .f32 0x7F800000#32
  let main_v1 : FVec F S512x256x32 .f32 := broadcastInDim S512x256x32 ![] bcast_S_S512x256x32 main_cst
  let main_v2 : IVec S512x256x32 1 := cmpf .olt main_v0 main_v1
  let main_c : IVec S_ 1 := constantI S_ 1 1#1
  let main_v3 : IVec S_ 1 := (fun x v => Host.reduce IntOp.andi x v reducesTo_S512x256x32_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_v13 main_v16
-- ==== Kernel.lean ====
abbrev S512x256x32 : Shape := ⟨3, ![512, 256, 32]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x131072 : Shape := ⟨2, ![1024, 131072]⟩
abbrev S131072 : Shape := ⟨1, ![131072]⟩
abbrev S512x8192 : Shape := ⟨2, ![512, 8192]⟩
abbrev S128x8192 : Shape := ⟨2, ![128, 8192]⟩
abbrev S128x1024 : Shape := ⟨2, ![128, 1024]⟩
abbrev S1x1024 : Shape := ⟨2, ![1, 1024]⟩
abbrev S128x512 : Shape := ⟨2, ![128, 512]⟩
abbrev S1x512 : Shape := ⟨2, ![1, 512]⟩
abbrev S128x256 : Shape := ⟨2, ![128, 256]⟩
abbrev S1x256 : Shape := ⟨2, ![1, 256]⟩
abbrev S512x131072 : Shape := ⟨2, ![512, 131072]⟩
abbrev S1024x8192 : Shape := ⟨2, ![1024, 8192]⟩
abbrev S8192 : Shape := ⟨1, ![8192]⟩
abbrev S1x8192 : Shape := ⟨2, ![1, 8192]⟩
abbrev S512x4096x32 : Shape := ⟨3, ![512, 4096, 32]⟩
abbrev S4096 : Shape := ⟨1, ![4096]⟩
abbrev S_ : Shape := ⟨0, ![]⟩
abbrev S1x4096x1 : Shape := ⟨3, ![1, 4096, 1]⟩
abbrev S4096x1 : Shape := ⟨2, ![4096, 1]⟩

abbrev nBuf : Space → Nat
  | .hbm => 155
  | .vmem => 22
  | .smem => 0
  | _ => 0

abbrev hbmTy0_0 (i : Nat) : BufTy := match i % 128 with
  | 0 => ⟨S512x256x32, .f32⟩
  | 1 => ⟨S8192x1024, .f32⟩
  | 2 => ⟨S1024, .f32⟩
  | 3 => ⟨S1024x512, .f32⟩
  | 4 => ⟨S512, .f32⟩
  | 5 => ⟨S512x256, .f32⟩
  | 6 => ⟨S256, .f32⟩
  | 7 => ⟨S256x512, .f32⟩
  | 8 => ⟨S512, .f32⟩
  | 9 => ⟨S512x1024, .f32⟩
  | 10 => ⟨S1024, .f32⟩
  | 11 => ⟨S1024x131072, .f32⟩
  | 12 => ⟨S131072, .f32⟩
  | 13 => ⟨S512x8192, .f32⟩
  | 14 => ⟨S512x8192, .bf16⟩
  | 15 => ⟨S8192x1024, .bf16⟩
  | 16 => ⟨S1024x512, .bf16⟩
  | 17 => ⟨S512x256, .bf16⟩
  | 18 => ⟨S256x512, .bf16⟩
  | 19 => ⟨S512x1024, .bf16⟩
  | 20 => ⟨S1024x131072, .bf16⟩
  | 21 => ⟨S512x1024, .f32⟩
  | 22 => ⟨S512x1024, .bf16⟩
  | 23 => ⟨S512x131072, .f32⟩
  | 24 => ⟨S512x4096x32, .f32⟩
  | 25 => ⟨S4096, .i32⟩
  | 26 => ⟨S_, .i32⟩
  | 27 => ⟨S_, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i1⟩
  | 34 => ⟨S4096, .i32⟩
  | 35 => ⟨S4096, .i32⟩
  | 36 => ⟨S_, .i32⟩
  | 37 => ⟨S4096, .i32⟩
  | 38 => ⟨S4096, .i1⟩
  | 39 => ⟨S4096, .i1⟩
  | 40 => ⟨S_, .i32⟩
  | 41 => ⟨S4096, .i32⟩
  | 42 => ⟨S4096, .i32⟩
  | 43 => ⟨S4096, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i1⟩
  | 58 => ⟨S_, .i32⟩
  | 59 => ⟨S_, .i1⟩
  | 60 => ⟨S4096, .i1⟩
  | 61 => ⟨S4096, .i1⟩
  | 62 => ⟨S4096, .i1⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S4096, .i1⟩
  | 70 => ⟨S_, .i32⟩
  | 71 => ⟨S4096, .i32⟩
  | 72 => ⟨S4096, .i1⟩
  | 73 => ⟨S4096, .i1⟩
  | 74 => ⟨S_, .i32⟩
  | 75 => ⟨S4096, .i32⟩
  | 76 => ⟨S4096, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i1⟩
  | 91 => ⟨S_, .i32⟩
  | 92 => ⟨S_, .i1⟩
  | 93 => ⟨S4096, .i1⟩
  | 94 => ⟨S4096, .i1⟩
  | 95 => ⟨S4096, .i1⟩
  | 96 => ⟨S4096, .i32⟩
  | 97 => ⟨S4096, .i32⟩
  | 98 => ⟨S4096, .i32⟩
  | 99 => ⟨S4096, .f32⟩
  | 100 => ⟨S_, .f32⟩
  | 101 => ⟨S4096, .f32⟩
  | 102 => ⟨S4096, .f32⟩
  | 103 => ⟨S1x4096x1, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S512x4096x32, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S512x4096x32, .f32⟩
  | 125 => ⟨S_, .f32⟩
  | 126 => ⟨S1x4096x1, .f32⟩
  | 127 => ⟨S1x4096x1, .f32⟩
  | _ => ⟨S512x256x32, .f32⟩

abbrev hbmTy0_1 (i : Nat) : BufTy := match i % 128 with
  | 0 => ⟨S512x4096x32, .f32⟩
  | 1 => ⟨S512x4096x32, .f32⟩
  | 2 => ⟨S512x4096x32, .f32⟩
  | 3 => ⟨S512x4096x32, .f32⟩
  | 4 => ⟨S512x4096x32, .f32⟩
  | 5 => ⟨S_, .f32⟩
  | 6 => ⟨S512x4096x32, .f32⟩
  | 7 => ⟨S512x4096x32, .f32⟩
  | 8 => ⟨S_, .f32⟩
  | 9 => ⟨S512x4096x32, .f32⟩
  | 10 => ⟨S512x4096x32, .f32⟩
  | 11 => ⟨S512x4096x32, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S512x4096x32, .f32⟩
  | 21 => ⟨S1x4096x1, .i1⟩
  | 22 => ⟨S1x4096x1, .i1⟩
  | 23 => ⟨S512x4096x32, .i1⟩
  | 24 => ⟨S512x4096x32, .f32⟩
  | 25 => ⟨S512x4096x32, .i1⟩
  | 26 => ⟨S512x4096x32, .f32⟩
  | _ => ⟨S512x256x32, .f32⟩

abbrev hbmTy (i : Nat) : BufTy := match i / 128 with
  | 0 => hbmTy0_0 i
  | 1 => hbmTy0_1 i
  | _ => ⟨S512x256x32, .f32⟩

abbrev bufTy : (tb : Table) → Fin (tcTables nBuf tb) → BufTy
  | .hbm, ⟨i, _⟩ => hbmTy i
  | .local _ .vmem, ⟨0, _⟩ => ⟨S128x8192, .bf16⟩
  | .local _ .vmem, ⟨1, _⟩ => ⟨S128x8192, .bf16⟩
  | .local _ .vmem, ⟨2, _⟩ => ⟨S8192x1024, .bf16⟩
  | .local _ .vmem, ⟨3, _⟩ => ⟨S1024, .f32⟩
  | .local _ .vmem, ⟨4, _⟩ => ⟨S1024x512, .bf16⟩
  | .local _ .vmem, ⟨5, _⟩ => ⟨S512, .f32⟩
  | .local _ .vmem, ⟨6, _⟩ => ⟨S512x256, .bf16⟩
  | .local _ .vmem, ⟨7, _⟩ => ⟨S256, .f32⟩
  | .local _ .vmem, ⟨8, _⟩ => ⟨S256x512, .bf16⟩
  | .local _ .vmem, ⟨9, _⟩ => ⟨S512, .f32⟩
  | .local _ .vmem, ⟨10, _⟩ => ⟨S512x1024, .bf16⟩
  | .local _ .vmem, ⟨11, _⟩ => ⟨S1024, .f32⟩
  | .local _ .vmem, ⟨12, _⟩ => ⟨S128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .bf16⟩
  | .local _ .vmem, ⟨16, _⟩ => ⟨S1024x8192, .bf16⟩
  | .local _ .vmem, ⟨17, _⟩ => ⟨S1024x8192, .bf16⟩
  | .local _ .vmem, ⟨18, _⟩ => ⟨S8192, .f32⟩
  | .local _ .vmem, ⟨19, _⟩ => ⟨S8192, .f32⟩
  | .local _ .vmem, ⟨20, _⟩ => ⟨S128x8192, .f32⟩
  | .local _ .vmem, ⟨21, _⟩ => ⟨S128x8192, .f32⟩
  | _, _ => ⟨S512x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v13 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v14 : Ref sig .tc := ⟨.hbm, 65, rfl⟩
abbrev main_c_1 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_c_2 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_c_3 : Ref sig .tc := ⟨.hbm, 74, rfl⟩
abbrev main_v21 : Ref sig .tc := ⟨.hbm, 75, rfl⟩
abbrev main_v22 : Ref sig .tc := ⟨.hbm, 76, rfl⟩
abbrev main_c_4 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v23 : Ref sig .tc := ⟨.hbm, 98, rfl⟩
abbrev main_v24 : Ref sig .tc := ⟨.hbm, 99, rfl⟩
abbrev main_cst : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_c_5 : Ref sig .tc := ⟨.hbm, 104, rfl⟩
abbrev main_v28 : Ref sig .tc := ⟨.hbm, 105, rfl⟩
abbrev main_v29 : Ref sig .tc := ⟨.hbm, 106, rfl⟩
abbrev main_c_6 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_c_7 : Ref sig .tc := ⟨.hbm, 113, rfl⟩
abbrev main_v35 : Ref sig .tc := ⟨.hbm, 114, rfl⟩
abbrev main_v36 : Ref sig .tc := ⟨.hbm, 115, rfl⟩
abbrev main_c_8 : Ref sig .tc := ⟨.hbm, 116, rfl⟩
abbrev main_v37 : Ref sig .tc := ⟨.hbm, 117, rfl⟩
abbrev main_v38 : Ref sig .tc := ⟨.hbm, 118, rfl⟩
abbrev main_c_9 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_cst_10 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_cst_11 : Ref sig .tc := ⟨.hbm, 133, rfl⟩
abbrev main_v51 : Ref sig .tc := ⟨.hbm, 134, rfl⟩
abbrev main_v52 : Ref sig .tc := ⟨.hbm, 135, rfl⟩
abbrev main_cst_12 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_c_13 : Ref sig .tc := ⟨.hbm, 140, rfl⟩
abbrev main_v56 : Ref sig .tc := ⟨.hbm, 141, rfl⟩
abbrev main_v57 : Ref sig .tc := ⟨.hbm, 142, rfl⟩
abbrev main_c_14 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_call3_v0 : Ref sig .tc := ⟨.hbm, 151, rfl⟩
abbrev main_v65 : Ref sig .tc := ⟨.hbm, 152, rfl⟩
abbrev main_call4_v0 : Ref sig .tc := ⟨.hbm, 153, rfl⟩
abbrev main_v66 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S512x256x32_S512x8192 : S512x256x32.ShapeCasts S512x8192
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S128x8192 : S1x8192.Broadcasts S128x8192
  shapeCasts_S512x131072_S512x4096x32 : S512x131072.ShapeCasts S512x4096x32
  bcast_S_S4096 : S_.BroadcastsInDim S4096 (![] : Fin 0 → Fin S4096.rank)
  bcast_S4096_S1x4096x1_1 : S4096.BroadcastsInDim S1x4096x1 (![1] : Fin 1 → Fin S1x4096x1.rank)
  bcast_S4096_S4096x1_0 : S4096.BroadcastsInDim S4096x1 (![0] : Fin 1 → Fin S4096x1.rank)
  bcast_S_S1x4096x1 : S_.BroadcastsInDim S1x4096x1 (![] : Fin 0 → Fin S1x4096x1.rank)
  bcast_S1x4096x1_S512x4096x32_0_1_2 : S1x4096x1.BroadcastsInDim S512x4096x32 (![0, 1, 2] : Fin 3 → Fin S512x4096x32.rank)
  bcast_S_S512x4096x32 : S_.BroadcastsInDim S512x4096x32 (![] : Fin 0 → Fin S512x4096x32.rank)
  dot_S128x8192_S8192x1024_S128x1024_1_0_0_1_n_n_wf : DotDims.WF S128x8192 S8192x1024 S128x1024 [1] [0] [0] [1] [] []
  dot_S128x1024_S1024x512_S128x512_1_0_0_1_n_n_wf : DotDims.WF S128x1024 S1024x512 S128x512 [1] [0] [0] [1] [] []
  dot_S128x512_S512x256_S128x256_1_0_0_1_n_n_wf : DotDims.WF S128x512 S512x256 S128x256 [1] [0] [0] [1] [] []
  dot_S128x256_S256x512_S128x512_1_0_0_1_n_n_wf : DotDims.WF S128x256 S256x512 S128x512 [1] [0] [0] [1] [] []
  dot_S128x512_S512x1024_S128x1024_1_0_0_1_n_n_wf : DotDims.WF S128x512 S512x1024 S128x1024 [1] [0] [0] [1] [] []
  dot_S128x1024_S1024x8192_S128x8192_1_0_0_1_n_n_wf : DotDims.WF S128x1024 S1024x8192 S128x8192 [1] [0] [0] [1] [] []
  gather_S512x256x32_S4096x1_S512x4096x32_02_1_n_n_1_1_512132_wf : GatherDims.WF S512x256x32 S4096x1 S512x4096x32 [0, 2] [1] [] [1] [] 1 ![512, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S512x8192.size a
  hwx0_0 : ∀ i : grid0.Coords, EltTy.bits .bf16 = 32 ∨ (Rect.block (s := S512x8192) S128x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S512x1024.size a
  hwx0_11 : ∀ i : grid0.Coords, EltTy.bits .f32 = 32 ∨ (Rect.block (s := S512x1024) S128x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .bf16 = 32 ∨ (Rect.block (s := S512x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8192.size a ≤ S1024x131072.size a
  hwx1_1 : ∀ i : grid1.Coords, EltTy.bits .bf16 = 32 ∨ (Rect.block (s := S1024x131072) S1024x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S131072.size a
  hwx1_2 : ∀ i : grid1.Coords, EltTy.bits .f32 = 32 ∨ (Rect.block (s := S131072) S8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S512x131072.size a
  hwx1_3 : ∀ i : grid1.Coords, EltTy.bits .f32 = 32 ∨ (Rect.block (s := S512x131072) S128x8192.size (cc1_transform_3 i) (hinb1_3 i)).WholeWords (EltTy.packing .f32)

variable [Facts₀]

def dot_S128x8192_S8192x1024_S128x1024_1_0_0_1_n_n : DotDims S128x8192 S8192x1024 S128x1024 where
  lhsContracting := [1]
  rhsContracting := [0]
  lhsNonContracting := [0]
  rhsNonContracting := [1]
  lhsBatch := []
  rhsBatch := []
  wf := dot_S128x8192_S8192x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf
def gather_S512x256x32_S4096x1_S512x4096x32_02_1_n_n_1_1_512132 : GatherDims S512x256x32 S4096x1 S512x4096x32 where
  offsetDims := [0, 2]
  collapsedSliceDims := [1]
  operandBatchingDims := []
  startIndicesBatchingDims := []
  startIndexMap := [1]
  indexVectorDim := 1
  sliceSizes := ![512, 1, 32]
  wf := gather_S512x256x32_S4096x1_S512x4096x32_02_1_n_n_1_1_512132_wf

abbrev win0_0 : Pipeline.Window sig grid0 :=
  Pipeline.Window.ofSpec (Memref.whole main_v1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v9) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x256x32 : Shape := ⟨3, ![512, 256, 32]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x131072 : Shape := ⟨2, ![1024, 131072]⟩
abbrev S131072 : Shape := ⟨1, ![131072]⟩
abbrev S512x8192 : Shape := ⟨2, ![512, 8192]⟩
abbrev S1x1024 : Shape := ⟨2, ![1, 1024]⟩
abbrev S_ : Shape := ⟨0, ![]⟩
abbrev S512x512 : Shape := ⟨2, ![512, 512]⟩
abbrev S1x512 : Shape := ⟨2, ![1, 512]⟩
abbrev S1x256 : Shape := ⟨2, ![1, 256]⟩
abbrev S512x131072 : Shape := ⟨2, ![512, 131072]⟩
abbrev S1x131072 : Shape := ⟨2, ![1, 131072]⟩
abbrev S512x4096x32 : Shape := ⟨3, ![512, 4096, 32]⟩
abbrev S4096 : Shape := ⟨1, ![4096]⟩
abbrev S1x4096x1 : Shape := ⟨3, ![1, 4096, 1]⟩
abbrev S4096x1 : Shape := ⟨2, ![4096, 1]⟩

abbrev nBuf : Space → Nat
  | .hbm => 181
  | .vmem => 0
  | .smem => 0
  | _ => 0

abbrev hbmTy0_0 (i : Nat) : BufTy := match i % 128 with
  | 0 => ⟨S512x256x32, .f32⟩
  | 1 => ⟨S8192x1024, .f32⟩
  | 2 => ⟨S1024, .f32⟩
  | 3 => ⟨S1024x512, .f32⟩
  | 4 => ⟨S512, .f32⟩
  | 5 => ⟨S512x256, .f32⟩
  | 6 => ⟨S256, .f32⟩
  | 7 => ⟨S256x512, .f32⟩
  | 8 => ⟨S512, .f32⟩
  | 9 => ⟨S512x1024, .f32⟩
  | 10 => ⟨S1024, .f32⟩
  | 11 => ⟨S1024x131072, .f32⟩
  | 12 => ⟨S131072, .f32⟩
  | 13 => ⟨S512x8192, .f32⟩
  | 14 => ⟨S512x1024, .f32⟩
  | 15 => ⟨S1x1024, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S512x512, .f32⟩
  | 22 => ⟨S1x512, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S512x256, .f32⟩
  | 29 => ⟨S1x256, .f32⟩
  | 30 => ⟨S512x256, .f32⟩
  | 31 => ⟨S512x256, .f32⟩
  | 32 => ⟨S512x512, .f32⟩
  | 33 => ⟨S1x512, .f32⟩
  | 34 => ⟨S512x512, .f32⟩
  | 35 => ⟨S512x512, .f32⟩
  | 36 => ⟨S_, .f32⟩
  | 37 => ⟨S512x512, .f32⟩
  | 38 => ⟨S512x512, .f32⟩
  | 39 => ⟨S512x1024, .f32⟩
  | 40 => ⟨S1x1024, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S512x131072, .f32⟩
  | 47 => ⟨S1x131072, .f32⟩
  | 48 => ⟨S512x131072, .f32⟩
  | 49 => ⟨S512x131072, .f32⟩
  | 50 => ⟨S512x4096x32, .f32⟩
  | 51 => ⟨S4096, .i32⟩
  | 52 => ⟨S_, .i32⟩
  | 53 => ⟨S_, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i1⟩
  | 60 => ⟨S4096, .i32⟩
  | 61 => ⟨S4096, .i32⟩
  | 62 => ⟨S_, .i32⟩
  | 63 => ⟨S4096, .i32⟩
  | 64 => ⟨S4096, .i1⟩
  | 65 => ⟨S4096, .i1⟩
  | 66 => ⟨S_, .i32⟩
  | 67 => ⟨S4096, .i32⟩
  | 68 => ⟨S4096, .i32⟩
  | 69 => ⟨S4096, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i1⟩
  | 84 => ⟨S_, .i32⟩
  | 85 => ⟨S_, .i1⟩
  | 86 => ⟨S4096, .i1⟩
  | 87 => ⟨S4096, .i1⟩
  | 88 => ⟨S4096, .i1⟩
  | 89 => ⟨S4096, .i32⟩
  | 90 => ⟨S4096, .i32⟩
  | 91 => ⟨S4096, .i32⟩
  | 92 => ⟨S_, .i32⟩
  | 93 => ⟨S4096, .i32⟩
  | 94 => ⟨S4096, .i1⟩
  | 95 => ⟨S4096, .i1⟩
  | 96 => ⟨S_, .i32⟩
  | 97 => ⟨S4096, .i32⟩
  | 98 => ⟨S4096, .i1⟩
  | 99 => ⟨S4096, .i1⟩
  | 100 => ⟨S_, .i32⟩
  | 101 => ⟨S4096, .i32⟩
  | 102 => ⟨S4096, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i1⟩
  | 117 => ⟨S_, .i32⟩
  | 118 => ⟨S_, .i1⟩
  | 119 => ⟨S4096, .i1⟩
  | 120 => ⟨S4096, .i1⟩
  | 121 => ⟨S4096, .i1⟩
  | 122 => ⟨S4096, .i32⟩
  | 123 => ⟨S4096, .i32⟩
  | 124 => ⟨S4096, .i32⟩
  | 125 => ⟨S4096, .f32⟩
  | 126 => ⟨S_, .f32⟩
  | 127 => ⟨S4096, .f32⟩
  | _ => ⟨S512x256x32, .f32⟩

abbrev hbmTy0_1 (i : Nat) : BufTy := match i % 128 with
  | 0 => ⟨S4096, .f32⟩
  | 1 => ⟨S1x4096x1, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S512x4096x32, .f32⟩
  | 11 => ⟨S_, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S512x4096x32, .f32⟩
  | 23 => ⟨S_, .f32⟩
  | 24 => ⟨S1x4096x1, .f32⟩
  | 25 => ⟨S1x4096x1, .f32⟩
  | 26 => ⟨S512x4096x32, .f32⟩
  | 27 => ⟨S512x4096x32, .f32⟩
  | 28 => ⟨S512x4096x32, .f32⟩
  | 29 => ⟨S512x4096x32, .f32⟩
  | 30 => ⟨S512x4096x32, .f32⟩
  | 31 => ⟨S_, .f32⟩
  | 32 => ⟨S512x4096x32, .f32⟩
  | 33 => ⟨S512x4096x32, .f32⟩
  | 34 => ⟨S_, .f32⟩
  | 35 => ⟨S512x4096x32, .f32⟩
  | 36 => ⟨S512x4096x32, .f32⟩
  | 37 => ⟨S512x4096x32, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S512x4096x32, .f32⟩
  | 47 => ⟨S1x4096x1, .i1⟩
  | 48 => ⟨S1x4096x1, .i1⟩
  | 49 => ⟨S512x4096x32, .i1⟩
  | 50 => ⟨S512x4096x32, .f32⟩
  | 51 => ⟨S512x4096x32, .i1⟩
  | 52 => ⟨S512x4096x32, .f32⟩
  | _ => ⟨S512x256x32, .f32⟩

abbrev hbmTy (i : Nat) : BufTy := match i / 128 with
  | 0 => hbmTy0_0 i
  | 1 => hbmTy0_1 i
  | _ => ⟨S512x256x32, .f32⟩

abbrev bufTy : (tb : Table) → Fin (tcTables nBuf tb) → BufTy
  | .hbm, ⟨i, _⟩ => hbmTy i
  | _, _ => ⟨S512x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call3_cst : Ref sig .tc := ⟨.hbm, 43, rfl⟩
abbrev main_call3_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_c : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_c_0 : Ref sig .tc := ⟨.hbm, 66, rfl⟩
abbrev main_call4_v12 : Ref sig .tc := ⟨.hbm, 67, rfl⟩
abbrev main_call4_v13 : Ref sig .tc := ⟨.hbm, 68, rfl⟩
abbrev main_v31 : Ref sig .tc := ⟨.hbm, 69, rfl⟩
abbrev main_c_0 : Ref sig .tc := ⟨.hbm, 70, rfl⟩
abbrev main_call5_v0 : Ref sig .tc := ⟨.hbm, 71, rfl⟩
abbrev main_call5_c : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_c_1 : Ref sig .tc := ⟨.hbm, 78, rfl⟩
abbrev main_call5_v5 : Ref sig .tc := ⟨.hbm, 79, rfl⟩
abbrev main_call5_v6 : Ref sig .tc := ⟨.hbm, 80, rfl⟩
abbrev main_call5_c_2 : Ref sig .tc := ⟨.hbm, 81, rfl⟩
abbrev main_call5_v7 : Ref sig .tc := ⟨.hbm, 82, rfl⟩
abbrev main_call5_v8 : Ref sig .tc := ⟨.hbm, 83, rfl⟩
abbrev main_call5_c_3 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_v32 : Ref sig .tc := ⟨.hbm, 91, rfl⟩
abbrev main_c_1 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_c_2 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_c_3 : Ref sig .tc := ⟨.hbm, 100, rfl⟩
abbrev main_v39 : Ref sig .tc := ⟨.hbm, 101, rfl⟩
abbrev main_v40 : Ref sig .tc := ⟨.hbm, 102, rfl⟩
abbrev main_c_4 : Ref sig .tc := ⟨.hbm, 103, rfl⟩
abbrev main_call6_v0 : Ref sig .tc := ⟨.hbm, 104, rfl⟩
abbrev main_call6_c : Ref sig .tc := ⟨.hbm, 105, rfl⟩
abbrev main_call6_v1 : Ref sig .tc := ⟨.hbm, 106, rfl⟩
abbrev main_call6_c_0 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_c_1 : Ref sig .tc := ⟨.hbm, 111, rfl⟩
abbrev main_call6_v5 : Ref sig .tc := ⟨.hbm, 112, rfl⟩
abbrev main_call6_v6 : Ref sig .tc := ⟨.hbm, 113, rfl⟩
abbrev main_call6_c_2 : Ref sig .tc := ⟨.hbm, 114, rfl⟩
abbrev main_call6_v7 : Ref sig .tc := ⟨.hbm, 115, rfl⟩
abbrev main_call6_v8 : Ref sig .tc := ⟨.hbm, 116, rfl⟩
abbrev main_call6_c_3 : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_v12 : Ref sig .tc := ⟨.hbm, 121, rfl⟩
abbrev main_call6_v13 : Ref sig .tc := ⟨.hbm, 122, rfl⟩
abbrev main_call6_v14 : Ref sig .tc := ⟨.hbm, 123, rfl⟩
abbrev main_v41 : Ref sig .tc := ⟨.hbm, 124, rfl⟩
abbrev main_v42 : Ref sig .tc := ⟨.hbm, 125, rfl⟩
abbrev main_cst : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_c_5 : Ref sig .tc := ⟨.hbm, 130, rfl⟩
abbrev main_v46 : Ref sig .tc := ⟨.hbm, 131, rfl⟩
abbrev main_v47 : Ref sig .tc := ⟨.hbm, 132, rfl⟩
abbrev main_c_6 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_c_7 : Ref sig .tc := ⟨.hbm, 139, rfl⟩
abbrev main_v53 : Ref sig .tc := ⟨.hbm, 140, rfl⟩
abbrev main_v54 : Ref sig .tc := ⟨.hbm, 141, rfl⟩
abbrev main_c_8 : Ref sig .tc := ⟨.hbm, 142, rfl⟩
abbrev main_v55 : Ref sig .tc := ⟨.hbm, 143, rfl⟩
abbrev main_v56 : Ref sig .tc := ⟨.hbm, 144, rfl⟩
abbrev main_c_9 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_cst_10 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_11 : Ref sig .tc := ⟨.hbm, 159, rfl⟩
abbrev main_v69 : Ref sig .tc := ⟨.hbm, 160, rfl⟩
abbrev main_v70 : Ref sig .tc := ⟨.hbm, 161, rfl⟩
abbrev main_cst_12 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_c_13 : Ref sig .tc := ⟨.hbm, 166, rfl⟩
abbrev main_v74 : Ref sig .tc := ⟨.hbm, 167, rfl⟩
abbrev main_v75 : Ref sig .tc := ⟨.hbm, 168, rfl⟩
abbrev main_c_14 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_call7_v0 : Ref sig .tc := ⟨.hbm, 177, rfl⟩
abbrev main_v83 : Ref sig .tc := ⟨.hbm, 178, rfl⟩
abbrev main_call8_v0 : Ref sig .tc := ⟨.hbm, 179, rfl⟩
abbrev main_v84 : Ref sig .tc := ⟨.hbm, 180, rfl⟩

abbrev nD : Nat := 1
abbrev τ : Topo := Topo.v7x

variable {F : FTy → Type} [FloatOps F]

class Facts₀ : Prop where
  shapeCasts_S512x256x32_S512x8192 : S512x256x32.ShapeCasts S512x8192
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S131072_S1x131072_1 : S131072.BroadcastsInDim S1x131072 (![1] : Fin 1 → Fin S1x131072.rank)
  bcast_S1x131072_S512x131072_0_1 : S1x131072.BroadcastsInDim S512x131072 (![0, 1] : Fin 2 → Fin S512x131072.rank)
  shapeCasts_S512x131072_S512x4096x32 : S512x131072.ShapeCasts S512x4096x32
  bcast_S_S4096 : S_.BroadcastsInDim S4096 (![] : Fin 0 → Fin S4096.rank)
  bcast_S4096_S1x4096x1_1 : S4096.BroadcastsInDim S1x4096x1 (![1] : Fin 1 → Fin S1x4096x1.rank)
  bcast_S4096_S4096x1_0 : S4096.BroadcastsInDim S4096x1 (![0] : Fin 1 → Fin S4096x1.rank)
  bcast_S_S1x4096x1 : S_.BroadcastsInDim S1x4096x1 (![] : Fin 0 → Fin S1x4096x1.rank)
  bcast_S1x4096x1_S512x4096x32_0_1_2 : S1x4096x1.BroadcastsInDim S512x4096x32 (![0, 1, 2] : Fin 3 → Fin S512x4096x32.rank)
  bcast_S_S512x4096x32 : S_.BroadcastsInDim S512x4096x32 (![] : Fin 0 → Fin S512x4096x32.rank)
  dot_S512x8192_S8192x1024_S512x1024_1_0_0_1_n_n_wf : DotDims.WF S512x8192 S8192x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S512x256_S256x512_S512x512_1_0_0_1_n_n_wf : DotDims.WF S512x256 S256x512 S512x512 [1] [0] [0] [1] [] []
  dot_S512x512_S512x1024_S512x1024_1_0_0_1_n_n_wf : DotDims.WF S512x512 S512x1024 S512x1024 [1] [0] [0] [1] [] []
  dot_S512x1024_S1024x131072_S512x131072_1_0_0_1_n_n_wf : DotDims.WF S512x1024 S1024x131072 S512x131072 [1] [0] [0] [1] [] []
  gather_S512x256x32_S4096x1_S512x4096x32_02_1_n_n_1_1_512132_wf : GatherDims.WF S512x256x32 S4096x1 S512x4096x32 [0, 2] [1] [] [1] [] 1 ![512, 1, 32]

variable [Facts₀]

def dot_S512x8192_S8192x1024_S512x1024_1_0_0_1_n_n : DotDims S512x8192 S8192x1024 S512x1024 where
  lhsContracting := [1]
  rhsContracting := [0]
  lhsNonContracting := [0]
  rhsNonContracting := [1]
  lhsBatch := []
  rhsBatch := []
  wf := dot_S512x8192_S8192x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x131072_S512x131072_1_0_0_1_n_n : DotDims S512x1024 S1024x131072 S512x131072 where
  lhsContracting := [1]
  rhsContracting := [0]
  lhsNonContracting := [0]
  rhsNonContracting := [1]
  lhsBatch := []
  rhsBatch := []
  wf := dot_S512x1024_S1024x131072_S512x131072_1_0_0_1_n_n_wf
def gather_S512x256x32_S4096x1_S512x4096x32_02_1_n_n_1_1_512132 : GatherDims S512x256x32 S4096x1 S512x4096x32 where
  offsetDims := [0, 2]
  collapsedSliceDims := [1]
  operandBatchingDims := []
  startIndicesBatchingDims := []
  startIndexMap := [1]
  indexVectorDim := 1
  sliceSizes := ![512, 1, 32]
  wf := gather_S512x256x32_S4096x1_S512x4096x32_02_1_n_n_1_1_512132_wf

class Facts : Prop extends Facts₀ where

variable [Facts]
-- ==== Proof.KernelRun.lean ====
/-
  The idealized kernel's run with its result named.

  The program is host operations, the first launch, one host operation, the second launch, and a tail of host
  operations. Its buffers' contents at each boundary are a fold from the launch memory: a stretch of host operations
  applies them in order, a launch leaves its arrays at what its write-backs leave and every other buffer as it was.
  Every weakly fair execution terminates, nothing faulting, with the result buffer at the last boundary's contents and
  every argument as launched.
-/
import proofs.«127527_j4939212390683_1_alg».proof.Proof.Gen.KernelIdeal.Frame

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates with the result buffer at the last boundary's contents and the arguments
    as launched. -/
theorem resultRun : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Blocks

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«127527_j4939212390683_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«127527_j4939212390683_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«127527_j4939212390683_1_alg».proof.Proof.LibBlockReads
import proofs.«127527_j4939212390683_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«127527_j4939212390683_1_alg».proof.Proof.LibMatProd
import proofs.«127527_j4939212390683_1_alg».proof.Proof.LibBiasRelu
import proofs.«127527_j4939212390683_1_alg».proof.Proof.LibRowVector
import proofs.«127527_j4939212390683_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.Layers.lean ====
/-
  The six-layer network on the extended reals.

  Six dense layers in a row — 8192 → 1024 → 512 → 256 → 512 → 1024 → 131072, a bias after each, the maximum with zero
  after all but the third and the last — are the network `mlp`; the first five are `trunk`. A layer's entry depends
  on one row of its input, so the trunk of some rows of the input is those rows of the trunk of the whole input:
  `trunk_rows`. Nothing here mentions a program.
-/
import proofs.«127527_j4939212390683_1_alg».proof.Proof.LibDenseLayers

noncomputable section

namespace Cert.Layers

open Idealize.ShloMosaic Idealize.ShloMosaic.ValueIdx

variable {r r' : Nat}

/-! ## The network -/

/-- The first five layers: 8192 → 1024 → 512 → 256 → 512 → 1024, the third without the maximum. -/
def trunk (x : (⟨2, ![r, 8192]⟩ : Shape).Idx → EReal)
    (w1 : (⟨2, ![8192, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (w3 : (⟨2, ![512, 256]⟩ : Shape).Idx → EReal) (b3 : (⟨1, ![256]⟩ : Shape).Idx → EReal)
    (w4 : (⟨2, ![256, 512]⟩ : Shape).Idx → EReal) (b4 : (⟨1, ![512]⟩ : Shape).Idx → EReal)
    (w5 : (⟨2, ![512, 1024]⟩ : Shape).Idx → EReal) (b5 : (⟨1, ![1024]⟩ : Shape).Idx → EReal) :
    (⟨2, ![r, 1024]⟩ : Shape).Idx → EReal :=
  dense (dense (affine (dense (dense x w1 b1) w2 b2) w3 b3) w4 b4) w5 b5

/-- All six: the trunk, then 1024 → 131072 without the maximum. -/
def mlp (x : (⟨2, ![r, 8192]⟩ : Shape).Idx → EReal)
    (w1 : (⟨2, ![8192, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (w3 : (⟨2, ![512, 256]⟩ : Shape).Idx → EReal) (b3 : (⟨1, ![256]⟩ : Shape).Idx → EReal)
    (w4 : (⟨2, ![256, 512]⟩ : Shape).Idx → EReal) (b4 : (⟨1, ![512]⟩ : Shape).Idx → EReal)
    (w5 : (⟨2, ![512, 1024]⟩ : Shape).Idx → EReal) (b5 : (⟨1, ![1024]⟩ : Shape).Idx → EReal)
    (w6 : (⟨2, ![1024, 131072]⟩ : Shape).Idx → EReal) (b6 : (⟨1, ![131072]⟩ : Shape).Idx → EReal) :
    (⟨2, ![r, 131072]⟩ : Shape).Idx → EReal :=
  affine (trunk x w1 b1 w2 b2 w3 b3 w4 b4 w5 b5) w6 b6

/-- Rows of the trunk: if row p of x' is row ρ p of x, row p of the trunk of x' is row ρ p of the trunk of x. -/
theorem trunk_rows (x : (⟨2, ![r, 8192]⟩ : Shape).Idx → EReal) (x' : (⟨2, ![r', 8192]⟩ : Shape).Idx → EReal)
    (w1 : (⟨2, ![8192, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (w3 : (⟨2, ![512, 256]⟩ : Shape).Idx → EReal) (b3 : (⟨1, ![256]⟩ : Shape).Idx → EReal)
    (w4 : (⟨2, ![256, 512]⟩ : Shape).Idx → EReal) (b4 : (⟨1, ![512]⟩ : Shape).Idx → EReal)
    (w5 : (⟨2, ![512, 1024]⟩ : Shape).Idx → EReal) (b5 : (⟨1, ![1024]⟩ : Shape).Idx → EReal)
    (ρ : Fin r' → Fin r) (h : ∀ (p : Fin r') (c : Fin 8192), x' (ix2 p c) = x (ix2 (ρ p) c))
    (p : Fin r') (q : Fin 1024) :
    trunk x' w1 b1 w2 b2 w3 b3 w4 b4 w5 b5 (ix2 p q) = trunk x w1 b1 w2 b2 w3 b3 w4 b4 w5 b5 (ix2 (ρ p) q) :=
  dense_rows _ _ w5 b5 ρ (dense_rows _ _ w4 b4 ρ (affine_rows _ _ w3 b3 ρ
    (dense_rows _ _ w2 b2 ρ (dense_rows x x' w1 b1 ρ h)))) p q

end Cert.Layers

end
-- ==== Proof.LastLayer.lean ====
/-
  The second launch: the last layer, tile by tile.

  The grid is 4 × 16. At point (i, j) the body multiplies rows 128·i … 128·i + 127 of the 512×1024 activations by
  columns 8192·j … 8192·j + 8191 of the 1024×131072 weights, adds entries 8192·j … of the bias, and writes the
  128×8192 tile (i, j) of the output. An entry of a layer depends on one row of the activations, one column of the
  weights and one entry of the bias, so the tile is tile (i, j) of the layer applied to the whole arrays; the 64 tiles
  cover the output, which therefore ends holding the whole layer. Stated at any contents `V` the launch is entered from.
-/
import proofs.«127527_j4939212390683_1_alg».proof.Proof.Gen.KernelIdeal.Frame
import proofs.«127527_j4939212390683_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's arithmetic is one layer without the maximum, of the three loaded blocks. -/
theorem lastPayload (x0 : Vec Ideal S128x1024 .bf16) (x1 : Vec Ideal S1024x8192 .bf16) (x2 : Vec Ideal S8192 .f32) :
    k1_pay1 x0 x1 x2 = Cert.Layers.affine x0 x1 x2 := by
  unfold k1_pay1 Cert.Layers.affine
  dsimp only
  rw [shapeCast_self, shapeCast_self,
    Cert.Lib.MatProd.matmul_zero_eq_matProd _ rfl rfl rfl rfl rfl rfl, Cert.Layers.body_bias]

/-- The printed index maps over the grid: the activations' block moves with the tile's row index, the weights' and
    the bias's with its column index, and the tile's indices stay in range. -/
theorem lastIdx : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 1) = win1_3.index t (1 : Fin 2)
    ∧ win1_3.index t (0 : Fin 2) ≤ 3 ∧ win1_3.index t (1 : Fin 2) ≤ 15 :=
  (by decide +kernel : ∀ t : Fin grid1.N, _)

/-- Every tile is some point's. -/
theorem lastOnto : ∀ (q0 : Fin 4) (q1 : Fin 16), ∃ t : Fin cfg1.N, win1_3.index t = ![q0.val, q1.val] :=
  (by decide +kernel : ∀ (q0 : Fin 4) (q1 : Fin 16), ∃ t : Fin grid1.N, win1_3.index t = ![q0.val, q1.val])

/-- The whole last layer of the arrays the launch finds. -/
def lastLayer (c : Dev nD) : S512x131072.Idx → EReal :=
  Cert.Layers.affine (V c main_v9 : S512x1024.Idx → EReal) (V c main_v7 : S1024x131072.Idx → EReal)
    (V c main_arg12 : S131072.Idx → EReal)

/-- The activations' block at a point is rows 128·i … of the activations. -/
theorem lastRows (c : Dev nD) (t : Fin cfg1.N) (p : Fin 128) (k : Fin 1024) (P : Fin 512)
    (hP : P.val = win1_3.index t (0 : Fin 2) * 128 + p.val) :
    (iblk1 V c 0 t : S128x1024.Idx → EReal) (ix2 p k) = (V c main_v9 : S512x1024.Idx → EReal) (ix2 P k) := by
  obtain ⟨e0, e1, -, -, -, -, -⟩ := lastIdx t
  unfold iblk1
  rw [View.read_apply]
  show V c main_v9 _ = V c main_v9 _
  refine congrArg _ (funext fun a => Fin.ext ?_)
  match a with
  | ⟨0, _⟩ => show win1_0.index t (0 : Fin 2) * 128 + 1 * p.val = P.val; omega
  | ⟨1, _⟩ => show win1_0.index t (1 : Fin 2) * 1024 + 1 * k.val = k.val; omega

/-- The weights' block at a point is columns 8192·j … of the weights. -/
theorem lastCols (c : Dev nD) (t : Fin cfg1.N) (k : Fin 1024) (q : Fin 8192) (Q : Fin 131072)
    (hQ : Q.val = win1_3.index t (1 : Fin 2) * 8192 + q.val) :
    (iblk1 V c 1 t : S1024x8192.Idx → EReal) (ix2 k q) = (V c main_v7 : S1024x131072.Idx → EReal) (ix2 k Q) := by
  obtain ⟨-, -, e2, e3, -, -, -⟩ := lastIdx t
  unfold iblk1
  rw [View.read_apply]
  show V c main_v7 _ = V c main_v7 _
  refine congrArg _ (funext fun a => Fin.ext ?_)
  match a with
  | ⟨0, _⟩ => show win1_1.index t (0 : Fin 2) * 1024 + 1 * k.val = k.val; omega
  | ⟨1, _⟩ => show win1_1.index t (1 : Fin 2) * 8192 + 1 * q.val = Q.val; omega

/-- The bias's block at a point is entries 8192·j … of the bias. -/
theorem lastBias (c : Dev nD) (t : Fin cfg1.N) (q : Fin 8192) (Q : Fin 131072)
    (hQ : Q.val = win1_3.index t (1 : Fin 2) * 8192 + q.val) :
    (iblk1 V c 2 t : S8192.Idx → EReal) (ix1 q) = (V c main_arg12 : S131072.Idx → EReal) (ix1 Q) := by
  obtain ⟨-, -, -, -, e4, -, -⟩ := lastIdx t
  unfold iblk1
  rw [View.read_apply]
  show V c main_arg12 _ = V c main_arg12 _
  refine congrArg _ (funext fun a => Fin.ext ?_)
  match a with
  | ⟨0, _⟩ => show win1_2.index t (0 : Fin 1) * 8192 + 1 * q.val = Q.val; omega

/-- WHAT A POINT WRITES BACK is its tile of the whole last layer. -/
theorem lastFlushed (c : Dev nD) (t : Fin cfg1.N) :
    (dat1 V c).flushed 3 t = ((cfg1.win 3).blk t).view.read (Elt Ideal) (lastLayer V c) := by
  show (cfg1.win 3).cut (grid1.coords t) ((dat1 V c).after 3 t) = _
  rw [after1_3]
  unfold out1_3
  rw [View.canon_unit_zero zero2]
  simp only [View.ld_unit_zero (S := S128x1024) zero2, View.ld_unit_zero (S := S1024x8192) zero2,
    View.ld_unit_zero (S := S8192) zero1]
  rw [lastPayload]
  obtain ⟨-, -, -, -, -, b0, b1⟩ := lastIdx t
  refine funext fun (j : S128x8192.Idx) => ?_
  obtain ⟨p, q, rfl⟩ : ∃ (p : Fin 128) (q : Fin 8192), j = ix2 p q := ⟨j 0, j 1, eq_ix2 j⟩
  rw [View.read_apply]
  have hemb : ((cfg1.win 3).blk t).view.emb (ix2 p q)
      = ix2 (⟨win1_3.index t (0 : Fin 2) * 128 + p.val, by omega⟩ : Fin 512)
          (⟨win1_3.index t (1 : Fin 2) * 8192 + q.val, by omega⟩ : Fin 131072) := by
    funext a; apply Fin.ext
    match a with
    | ⟨0, _⟩ => show win1_3.index t (0 : Fin 2) * 128 + 1 * p.val = win1_3.index t (0 : Fin 2) * 128 + p.val; omega
    | ⟨1, _⟩ => show win1_3.index t (1 : Fin 2) * 8192 + 1 * q.val = win1_3.index t (1 : Fin 2) * 8192 + q.val; omega
  rw [hemb]
  unfold lastLayer
  exact Cert.Layers.affine_block (V c main_v9 : S512x1024.Idx → EReal) (iblk1 V c 0 t : S128x1024.Idx → EReal)
    (V c main_v7 : S1024x131072.Idx → EReal) (iblk1 V c 1 t : S1024x8192.Idx → EReal)
    (V c main_arg12 : S131072.Idx → EReal) (iblk1 V c 2 t : S8192.Idx → EReal)
    (fun p => (⟨win1_3.index t (0 : Fin 2) * 128 + p.val, by omega⟩ : Fin 512))
    (fun q => (⟨win1_3.index t (1 : Fin 2) * 8192 + q.val, by omega⟩ : Fin 131072))
    (fun p k => lastRows V c t p k _ rfl) (fun k q => lastCols V c t k q _ rfl) (fun q => lastBias V c t q _ rfl) p q

/-- An index of the output is in a point's tile iff each coordinate is in the tile's range on its axis. -/
theorem lastMem (t : Fin cfg1.N) (i : S512x131072.Idx) :
    i ∈ ((cfg1.win 3).blk t).view.set ↔ ∀ a : Fin 2, win1_3.index t a * S128x8192.size a ≤ (i a).val
      ∧ (i a).val < win1_3.index t a * S128x8192.size a + S128x8192.size a := by
  show i ∈ ((View.whole main_v10).slice (win1_3.rect t)).set ↔ _
  rw [View.set_slice_whole, Rect.mem_set_unit]
  exact Iff.rfl

/-- The 64 tiles cover the output: entry (P, Q) is in tile (P / 128, Q / 8192). -/
theorem lastCover (i : S512x131072.Idx) :
    ∃ t : Fin cfg1.N, (cfg1.win 3).flush t = true ∧ i ∈ ((cfg1.win 3).blk t).view.set := by
  have hi0 : (i 0).val < 512 := (i 0).isLt
  have hi1 : (i 1).val < 131072 := (i 1).isLt
  obtain ⟨t, ht⟩ := lastOnto ⟨(i 0).val / 128, by omega⟩ ⟨(i 1).val / 8192, by omega⟩
  have q0 : win1_3.index t (0 : Fin 2) = (i 0).val / 128 := congrFun ht 0
  have q1 : win1_3.index t (1 : Fin 2) = (i 1).val / 8192 := congrFun ht 1
  refine ⟨t, flush1_3 t, ?_⟩
  rw [lastMem]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 8192 ≤ (i 1).val ∧ (i 1).val < win1_3.index t (1 : Fin 2) * 8192 + 8192; omega

/-- THE OUTPUT after the launch is the whole last layer of the arrays the launch found. -/
theorem lastFinal (c : Dev nD) : (dat1 V c).arrAt 3 cfg1.N = lastLayer V c :=
  (dat1 V c).arrAt_eq_of_cover 3 (lastLayer V c) (fun t _ => lastFlushed V c t) lastCover

end Cert.KernelIdeal.Blocks

end
-- ==== Proof.Trunk.lean ====
/-
  The first launch: the five-layer trunk, 128 rows at a time.

  The grid has 4 points. At point i the body takes rows 128·i … 128·i + 127 of the 512×8192 input and the five weight
  matrices and bias vectors whole, runs the five layers (a change of float format between two layers is the
  identity on the extended reals), and writes rows 128·i … of the 512×1024 output. A layer's entry depends on one row
  of its input, so these are rows 128·i … of the trunk of the whole input; the four row blocks cover the output,
  which therefore ends holding the whole trunk. Stated at any contents `V` the launch is entered from.
-/
import proofs.«127527_j4939212390683_1_alg».proof.Proof.Gen.KernelIdeal.Frame
import proofs.«127527_j4939212390683_1_alg».proof.Proof.Layers
import proofs.«127527_j4939212390683_1_alg».proof.Proof.LastLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

/-- On the extended reals a change of float format is the identity. -/
theorem truncfId {s : Shape} {φ ψ : FTy} (a : FVec Ideal s φ) (h : ψ.bits < φ.bits) :
    (truncf ψ a h : s.Idx → EReal) = (a : s.Idx → EReal) := rfl

/-- The body's arithmetic is the trunk of the eleven loaded blocks. -/
theorem trunkPayload (x0 : Vec Ideal S128x8192 .bf16) (x1 : Vec Ideal S8192x1024 .bf16) (x2 : Vec Ideal S1024 .f32)
    (x3 : Vec Ideal S1024x512 .bf16) (x4 : Vec Ideal S512 .f32) (x5 : Vec Ideal S512x256 .bf16) (x6 : Vec Ideal S256 .f32)
    (x7 : Vec Ideal S256x512 .bf16) (x8 : Vec Ideal S512 .f32) (x9 : Vec Ideal S512x1024 .bf16) (x10 : Vec Ideal S1024 .f32) :
    k0_pay1 (k0_pay2 x0 x1 x2 x3 x4 x5 x6 x7 x8) (k0_pay3 (F := Ideal)) x9 x10
      = Cert.Layers.trunk x0 x1 x2 x3 x4 x5 x6 x7 x8 x9 x10 := by
  unfold k0_pay1 k0_pay2 k0_pay3 Cert.Layers.trunk Cert.Layers.dense Cert.Layers.affine
  dsimp only
  simp only [shapeCast_self, truncfId,
    Cert.Lib.MatProd.matmul_zero_eq_matProd dot_S128x8192_S8192x1024_S128x1024_1_0_0_1_n_n rfl rfl rfl rfl rfl rfl none,
    Cert.Lib.MatProd.matmul_zero_eq_matProd dot_S128x1024_S1024x512_S128x512_1_0_0_1_n_n rfl rfl rfl rfl rfl rfl none,
    Cert.Lib.MatProd.matmul_zero_eq_matProd dot_S128x512_S512x256_S128x256_1_0_0_1_n_n rfl rfl rfl rfl rfl rfl none,
    Cert.Lib.MatProd.matmul_zero_eq_matProd dot_S128x256_S256x512_S128x512_1_0_0_1_n_n rfl rfl rfl rfl rfl rfl none,
    Cert.Lib.MatProd.matmul_zero_eq_matProd dot_S128x512_S512x1024_S128x1024_1_0_0_1_n_n rfl rfl rfl rfl rfl rfl none,
    Cert.Layers.body_bias, Cert.Layers.max_biasAdd]

/-- The printed index maps over the grid: the input's block moves with the output's row index, every weight and bias
    window has one block, and the output's indices stay in range. -/
theorem trunkIdx : ∀ t : Fin cfg0.N, win0_0.index t (0 : Fin 2) = win0_11.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) ≤ 3
    ∧ win0_11.index t (1 : Fin 2) = 0 :=
  (by decide +kernel : ∀ t : Fin grid0.N, _)

/-- Every row block of the output is some point's. -/
theorem trunkOnto : ∀ q0 : Fin 4, ∃ t : Fin cfg0.N, win0_11.index t = ![q0.val, 0] :=
  (by decide +kernel : ∀ q0 : Fin 4, ∃ t : Fin grid0.N, win0_11.index t = ![q0.val, 0])

/-- The input's block at a point is rows 128·i … of the input. -/
theorem trunkRows (c : Dev nD) (t : Fin cfg0.N) (p : Fin 128) (k : Fin 8192) (P : Fin 512)
    (hP : P.val = win0_11.index t (0 : Fin 2) * 128 + p.val) :
    (iblk0 V c 0 t : S128x8192.Idx → EReal) (ix2 p k) = (V c main_v1 : S512x8192.Idx → EReal) (ix2 P k) := by
  have hI := trunkIdx t
  unfold iblk0
  rw [View.read_apply]
  show V c main_v1 _ = V c main_v1 _
  refine congrArg _ (funext fun a => Fin.ext ?_)
  match a with
  | ⟨0, _⟩ => show win0_0.index t (0 : Fin 2) * 128 + 1 * p.val = P.val; omega
  | ⟨1, _⟩ => show win0_0.index t (1 : Fin 2) * 8192 + 1 * k.val = k.val; omega

/-- Window 1's one block is the whole array. -/
theorem whole1 (c : Dev nD) (t : Fin cfg0.N) : (iblk0 V c 1 t : S8192x1024.Idx → EReal) = (V c main_v2 : S8192x1024.Idx → EReal) := by
  have hI := trunkIdx t
  unfold iblk0
  funext y
  rw [View.read_apply]
  show V c main_v2 _ = V c main_v2 _
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 1024 + 1 * (y 1).val = (y 1).val; omega

/-- Window 2's one block is the whole array. -/
theorem whole2 (c : Dev nD) (t : Fin cfg0.N) : (iblk0 V c 2 t : S1024.Idx → EReal) = (V c main_arg2 : S1024.Idx → EReal) := by
  have hI := trunkIdx t
  unfold iblk0
  funext y
  rw [View.read_apply]
  show V c main_arg2 _ = V c main_arg2 _
  refine congrArg _ (funext fun a => Fin.ext ?_)
  match a with
  | ⟨0, _⟩ => show win0_2.index t (0 : Fin 1) * 1024 + 1 * (y 0).val = (y 0).val; omega

/-- Window 3's one block is the whole array. -/
theorem whole3 (c : Dev nD) (t : Fin cfg0.N) : (iblk0 V c 3 t : S1024x512.Idx → EReal) = (V c main_v3 : S1024x512.Idx → EReal) := by
  have hI := trunkIdx t
  unfold iblk0
  funext y
  rw [View.read_apply]
  show V c main_v3 _ = V c main_v3 _
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 512 + 1 * (y 1).val = (y 1).val; omega

/-- Window 4's one block is the whole array. -/
theorem whole4 (c : Dev nD) (t : Fin cfg0.N) : (iblk0 V c 4 t : S512.Idx → EReal) = (V c main_arg4 : S512.Idx → EReal) := by
  have hI := trunkIdx t
  unfold iblk0
  funext y
  rw [View.read_apply]
  show V c main_arg4 _ = V c main_arg4 _
  refine congrArg _ (funext fun a => Fin.ext ?_)
  match a with
  | ⟨0, _⟩ => show win0_4.index t (0 : Fin 1) * 512 + 1 * (y 0).val = (y 0).val; omega

/-- Window 5's one block is the whole array. -/
theorem whole5 (c : Dev nD) (t : Fin cfg0.N) : (iblk0 V c 5 t : S512x256.Idx → EReal) = (V c main_v4 : S512x256.Idx → EReal) := by
  have hI := trunkIdx t
  unfold iblk0
  funext y
  rw [View.read_apply]
  show V c main_v4 _ = V c main_v4 _
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 256 + 1 * (y 1).val = (y 1).val; omega

/-- Window 6's one block is the whole array. -/
theorem whole6 (c : Dev nD) (t : Fin cfg0.N) : (iblk0 V c 6 t : S256.Idx → EReal) = (V c main_arg6 : S256.Idx → EReal) := by
  have hI := trunkIdx t
  unfold iblk0
  funext y
  rw [View.read_apply]
  show V c main_arg6 _ = V c main_arg6 _
  refine congrArg _ (funext fun a => Fin.ext ?_)
  match a with
  | ⟨0, _⟩ => show win0_6.index t (0 : Fin 1) * 256 + 1 * (y 0).val = (y 0).val; omega

/-- Window 7's one block is the whole array. -/
theorem whole7 (c : Dev nD) (t : Fin cfg0.N) : (iblk0 V c 7 t : S256x512.Idx → EReal) = (V c main_v5 : S256x512.Idx → EReal) := by
  have hI := trunkIdx t
  unfold iblk0
  funext y
  rw [View.read_apply]
  show V c main_v5 _ = V c main_v5 _
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 512 + 1 * (y 1).val = (y 1).val; omega

/-- Window 8's one block is the whole array. -/
theorem whole8 (c : Dev nD) (t : Fin cfg0.N) : (iblk0 V c 8 t : S512.Idx → EReal) = (V c main_arg8 : S512.Idx → EReal) := by
  have hI := trunkIdx t
  unfold iblk0
  funext y
  rw [View.read_apply]
  show V c main_arg8 _ = V c main_arg8 _
  refine congrArg _ (funext fun a => Fin.ext ?_)
  match a with
  | ⟨0, _⟩ => show win0_8.index t (0 : Fin 1) * 512 + 1 * (y 0).val = (y 0).val; omega

/-- Window 9's one block is the whole array. -/
theorem whole9 (c : Dev nD) (t : Fin cfg0.N) : (iblk0 V c 9 t : S512x1024.Idx → EReal) = (V c main_v6 : S512x1024.Idx → EReal) := by
  have hI := trunkIdx t
  unfold iblk0
  funext y
  rw [View.read_apply]
  show V c main_v6 _ = V c main_v6 _
  refine congrArg _ (funext fun a => Fin.ext ?_)
  match a with
  | ⟨0, _⟩ => show win0_9.index t (0 : Fin 2) * 512 + 1 * (y 0).val = (y 0).val; omega
  | ⟨1, _⟩ => show win0_9.index t (1 : Fin 2) * 1024 + 1 * (y 1).val = (y 1).val; omega

/-- Window 10's one block is the whole array. -/
theorem whole10 (c : Dev nD) (t : Fin cfg0.N) : (iblk0 V c 10 t : S1024.Idx → EReal) = (V c main_arg10 : S1024.Idx → EReal) := by
  have hI := trunkIdx t
  unfold iblk0
  funext y
  rw [View.read_apply]
  show V c main_arg10 _ = V c main_arg10 _
  refine congrArg _ (funext fun a => Fin.ext ?_)
  match a with
  | ⟨0, _⟩ => show win0_10.index t (0 : Fin 1) * 1024 + 1 * (y 0).val = (y 0).val; omega

/-- The whole trunk of the arrays the launch finds. -/
def trunkWhole (c : Dev nD) : S512x1024.Idx → EReal :=
  Cert.Layers.trunk (V c main_v1 : S512x8192.Idx → EReal)
    (V c main_v2 : S8192x1024.Idx → EReal) (V c main_arg2 : S1024.Idx → EReal)
    (V c main_v3 : S1024x512.Idx → EReal) (V c main_arg4 : S512.Idx → EReal)
    (V c main_v4 : S512x256.Idx → EReal) (V c main_arg6 : S256.Idx → EReal)
    (V c main_v5 : S256x512.Idx → EReal) (V c main_arg8 : S512.Idx → EReal)
    (V c main_v6 : S512x1024.Idx → EReal) (V c main_arg10 : S1024.Idx → EReal)

/-- WHAT A POINT WRITES BACK is its row block of the whole trunk. -/
theorem trunkFlushed (c : Dev nD) (t : Fin cfg0.N) :
    (dat0 V c).flushed 11 t = ((cfg0.win 11).blk t).view.read (Elt Ideal) (trunkWhole V c) := by
  show (cfg0.win 11).cut (grid0.coords t) ((dat0 V c).after 11 t) = _
  rw [after0_11]
  unfold out0_11
  rw [View.canon_unit_zero zero2]
  simp only [View.ld_unit_zero (S := S128x8192) zero2, View.ld_unit_zero (S := S8192x1024) zero2,
    View.ld_unit_zero (S := S1024x512) zero2, View.ld_unit_zero (S := S512x256) zero2,
    View.ld_unit_zero (S := S256x512) zero2, View.ld_unit_zero (S := S512x1024) zero2,
    View.ld_unit_zero (S := S1024) zero1, View.ld_unit_zero (S := S512) zero1, View.ld_unit_zero (S := S256) zero1]
  rw [trunkPayload, whole1, whole2, whole3, whole4, whole5, whole6, whole7, whole8, whole9, whole10]
  have hI := trunkIdx t
  refine funext fun (j : S128x1024.Idx) => ?_
  obtain ⟨p, q, rfl⟩ : ∃ (p : Fin 128) (q : Fin 1024), j = ix2 p q := ⟨j 0, j 1, eq_ix2 j⟩
  rw [View.read_apply]
  have hemb : ((cfg0.win 11).blk t).view.emb (ix2 p q)
      = ix2 (⟨win0_11.index t (0 : Fin 2) * 128 + p.val, by omega⟩ : Fin 512) q := by
    funext a; apply Fin.ext
    match a with
    | ⟨0, _⟩ => show win0_11.index t (0 : Fin 2) * 128 + 1 * p.val = win0_11.index t (0 : Fin 2) * 128 + p.val; omega
    | ⟨1, _⟩ => show win0_11.index t (1 : Fin 2) * 1024 + 1 * q.val = q.val; omega
  rw [hemb]
  unfold trunkWhole
  exact Cert.Layers.trunk_rows (V c main_v1 : S512x8192.Idx → EReal) (iblk0 V c 0 t : S128x8192.Idx → EReal)
    (V c main_v2 : S8192x1024.Idx → EReal) (V c main_arg2 : S1024.Idx → EReal)
    (V c main_v3 : S1024x512.Idx → EReal) (V c main_arg4 : S512.Idx → EReal)
    (V c main_v4 : S512x256.Idx → EReal) (V c main_arg6 : S256.Idx → EReal)
    (V c main_v5 : S256x512.Idx → EReal) (V c main_arg8 : S512.Idx → EReal)
    (V c main_v6 : S512x1024.Idx → EReal) (V c main_arg10 : S1024.Idx → EReal)
    (fun p => (⟨win0_11.index t (0 : Fin 2) * 128 + p.val, by omega⟩ : Fin 512))
    (fun p k => trunkRows V c t p k _ rfl) p q

/-- An index of the output is in a point's row block iff each coordinate is in the block's range on its axis. -/
theorem trunkMem (t : Fin cfg0.N) (i : S512x1024.Idx) :
    i ∈ ((cfg0.win 11).blk t).view.set ↔ ∀ a : Fin 2, win0_11.index t a * S128x1024.size a ≤ (i a).val
      ∧ (i a).val < win0_11.index t a * S128x1024.size a + S128x1024.size a := by
  show i ∈ ((View.whole main_v8).slice (win0_11.rect t)).set ↔ _
  rw [View.set_slice_whole, Rect.mem_set_unit]
  exact Iff.rfl

/-- The four row blocks cover the output: row P is in block P / 128. -/
theorem trunkCover (i : S512x1024.Idx) :
    ∃ t : Fin cfg0.N, (cfg0.win 11).flush t = true ∧ i ∈ ((cfg0.win 11).blk t).view.set := by
  have hi0 : (i 0).val < 512 := (i 0).isLt
  have hi1 : (i 1).val < 1024 := (i 1).isLt
  obtain ⟨t, ht⟩ := trunkOnto ⟨(i 0).val / 128, by omega⟩
  have q0 : win0_11.index t (0 : Fin 2) = (i 0).val / 128 := congrFun ht 0
  have q1 : win0_11.index t (1 : Fin 2) = 0 := congrFun ht 1
  refine ⟨t, flush0_11 t, ?_⟩
  rw [trunkMem]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 1024 ≤ (i 1).val ∧ (i 1).val < win0_11.index t (1 : Fin 2) * 1024 + 1024; omega

/-- THE OUTPUT after the launch is the whole trunk of the arrays the launch found. -/
theorem trunkFinal (c : Dev nD) : (dat0 V c).arrAt 11 cfg0.N = trunkWhole V c :=
  (dat0 V c).arrAt_eq_of_cover 11 (trunkWhole V c) (fun t _ => trunkFlushed V c t) trunkCover

end Cert.KernelIdeal.Blocks

end
-- ==== Proof.Boundaries.lean ====
/-
  What each launch finds, and what the second one leaves.

  Before the first launch the host re-shapes the 512×256×32 input to 512×8192 and changes the float format of it and of
  the six weight matrices; on the extended reals a change of format is the identity, so the first launch finds the
  re-shaped input, the weights and the biases themselves. It leaves the trunk of them; one more change of format, and
  the second launch finds that trunk, the last weights and the last bias, and leaves the whole network's output. No
  host operation and no launch writes an argument.
-/
import proofs.«127527_j4939212390683_1_alg».proof.Proof.Gen.KernelIdeal.Frame
import proofs.«127527_j4939212390683_1_alg».proof.Proof.Layers
import proofs.«127527_j4939212390683_1_alg».proof.Proof.LastLayer
import proofs.«127527_j4939212390683_1_alg».proof.Proof.Trunk
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ) (ρ : Dev nD → PrngReg)

/-! ## The first launch's entry contents -/

/-- The input as the first launch finds it: re-shaped to 512×8192. -/
theorem entryInput (c : Dev nD) : (V1 m ρ c main_v1 : S512x8192.Idx → EReal)
    = shapeCast S512x8192 (m ((c : Thread nD τ).loc main_arg0)) shapeCasts_S512x256x32_S512x8192 := by
  show StableHlo.after hostOps0 (W0 m ρ c) (Proc.devRef .tc main_v1) = _
  after_results
  rfl

/-- A weight matrix as the first launch finds it: itself. -/
theorem entry_main_v2 (c : Dev nD) : (V1 m ρ c main_v2 : S8192x1024.Idx → EReal) = m ((c : Thread nD τ).loc main_arg1) := by
  show StableHlo.after hostOps0 (W0 m ρ c) (Proc.devRef .tc main_v2) = _
  after_results
  rfl

/-- A weight matrix as the first launch finds it: itself. -/
theorem entry_main_v3 (c : Dev nD) : (V1 m ρ c main_v3 : S1024x512.Idx → EReal) = m ((c : Thread nD τ).loc main_arg3) := by
  show StableHlo.after hostOps0 (W0 m ρ c) (Proc.devRef .tc main_v3) = _
  after_results
  rfl

/-- A weight matrix as the first launch finds it: itself. -/
theorem entry_main_v4 (c : Dev nD) : (V1 m ρ c main_v4 : S512x256.Idx → EReal) = m ((c : Thread nD τ).loc main_arg5) := by
  show StableHlo.after hostOps0 (W0 m ρ c) (Proc.devRef .tc main_v4) = _
  after_results
  rfl

/-- A weight matrix as the first launch finds it: itself. -/
theorem entry_main_v5 (c : Dev nD) : (V1 m ρ c main_v5 : S256x512.Idx → EReal) = m ((c : Thread nD τ).loc main_arg7) := by
  show StableHlo.after hostOps0 (W0 m ρ c) (Proc.devRef .tc main_v5) = _
  after_results
  rfl

/-- A weight matrix as the first launch finds it: itself. -/
theorem entry_main_v6 (c : Dev nD) : (V1 m ρ c main_v6 : S512x1024.Idx → EReal) = m ((c : Thread nD τ).loc main_arg9) := by
  show StableHlo.after hostOps0 (W0 m ρ c) (Proc.devRef .tc main_v6) = _
  after_results
  rfl

/-- A weight matrix as the first launch finds it: itself. -/
theorem entry_main_v7 (c : Dev nD) : (V1 m ρ c main_v7 : S1024x131072.Idx → EReal) = m ((c : Thread nD τ).loc main_arg11) := by
  show StableHlo.after hostOps0 (W0 m ρ c) (Proc.devRef .tc main_v7) = _
  after_results
  rfl

/-- A bias vector as the first launch finds it: itself. -/
theorem entry_main_arg2 (c : Dev nD) : (V1 m ρ c main_arg2 : S1024.Idx → EReal) = m ((c : Thread nD τ).loc main_arg2) := by
  show StableHlo.after hostOps0 (W0 m ρ c) (Proc.devRef .tc main_arg2) = _
  after_results

/-- A bias vector as the first launch finds it: itself. -/
theorem entry_main_arg4 (c : Dev nD) : (V1 m ρ c main_arg4 : S512.Idx → EReal) = m ((c : Thread nD τ).loc main_arg4) := by
  show StableHlo.after hostOps0 (W0 m ρ c) (Proc.devRef .tc main_arg4) = _
  after_results

/-- A bias vector as the first launch finds it: itself. -/
theorem entry_main_arg6 (c : Dev nD) : (V1 m ρ c main_arg6 : S256.Idx → EReal) = m ((c : Thread nD τ).loc main_arg6) := by
  show StableHlo.after hostOps0 (W0 m ρ c) (Proc.devRef .tc main_arg6) = _
  after_results

/-- A bias vector as the first launch finds it: itself. -/
theorem entry_main_arg8 (c : Dev nD) : (V1 m ρ c main_arg8 : S512.Idx → EReal) = m ((c : Thread nD τ).loc main_arg8) := by
  show StableHlo.after hostOps0 (W0 m ρ c) (Proc.devRef .tc main_arg8) = _
  after_results

/-- A bias vector as the first launch finds it: itself. -/
theorem entry_main_arg10 (c : Dev nD) : (V1 m ρ c main_arg10 : S1024.Idx → EReal) = m ((c : Thread nD τ).loc main_arg10) := by
  show StableHlo.after hostOps0 (W0 m ρ c) (Proc.devRef .tc main_arg10) = _
  after_results

/-- A bias vector as the first launch finds it: itself. -/
theorem entry_main_arg12 (c : Dev nD) : (V1 m ρ c main_arg12 : S131072.Idx → EReal) = m ((c : Thread nD τ).loc main_arg12) := by
  show StableHlo.after hostOps0 (W0 m ρ c) (Proc.devRef .tc main_arg12) = _
  after_results

/-! ## The second launch's entry contents -/

/-- The activations the second launch finds: what the first launch left, the trunk. -/
theorem entryActivations (c : Dev nD) : (V3 m ρ c main_v9 : S512x1024.Idx → EReal) = trunkWhole (V1 m ρ) c := by
  show StableHlo.after hostOps1 (W2 m ρ c) (Proc.devRef .tc main_v9) = _
  after_results
  exact (W2_arr m ρ c 11).trans (trunkFinal (V1 m ρ) c)

/-- The last weights as the second launch finds them: themselves. -/
theorem entryLastWeights (c : Dev nD) : (V3 m ρ c main_v7 : S1024x131072.Idx → EReal) = m ((c : Thread nD τ).loc main_arg11) :=
  calc (V3 m ρ c main_v7 : S1024x131072.Idx → EReal)
    _ = W2 m ρ c (Proc.devRef .tc main_v7) := StableHlo.after_of_forall_not_mem _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W1 m ρ c (Proc.devRef .tc main_v7) := W2_of_ne m ρ c main_v7 (by decide)
    _ = m ((c : Thread nD τ).loc main_arg11) := entry_main_v7 m ρ c

/-- The last bias as the second launch finds it: itself. -/
theorem entryLastBias (c : Dev nD) : (V3 m ρ c main_arg12 : S131072.Idx → EReal) = m ((c : Thread nD τ).loc main_arg12) :=
  calc (V3 m ρ c main_arg12 : S131072.Idx → EReal)
    _ = W2 m ρ c (Proc.devRef .tc main_arg12) := StableHlo.after_of_forall_not_mem _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W1 m ρ c (Proc.devRef .tc main_arg12) := W2_of_ne m ρ c main_arg12 (by decide)
    _ = m ((c : Thread nD τ).loc main_arg12) := entry_main_arg12 m ρ c

/-! ## After the second launch -/

/-- The network's output array after the second launch: the whole network of the arguments. -/
theorem networkOutput (c : Dev nD) : (W4 m ρ c (Proc.devRef .tc main_v10) : S512x131072.Idx → EReal)
    = Cert.Layers.mlp (shapeCast S512x8192 (m ((c : Thread nD τ).loc main_arg0)) shapeCasts_S512x256x32_S512x8192)
        (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12)) := by
  show W4 m ρ c (Proc.devRef .tc (Pipeline.arrRef spec1 3)) = _
  rw [W4_arr, lastFinal]
  unfold lastLayer
  rw [entryActivations, entryLastWeights, entryLastBias]
  unfold trunkWhole
  rw [entryInput, entry_main_v2, entry_main_arg2, entry_main_v3, entry_main_arg4, entry_main_v4, entry_main_arg6,
    entry_main_v5, entry_main_arg8, entry_main_v6, entry_main_arg10]
  rfl

/-- The input array is as launched when the tail begins. -/
theorem inputKept (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = m ((c : Thread nD τ).loc main_arg0) := rfl

end Cert.KernelIdeal.Blocks

end
-- ==== Proof.RefOps.lean ====
/-
  The reference program as one straight line of array operations, and its run.

  The reference is a host program: 103 statements, nine of them calls of small outlined functions (four times the
  maximum with zero, a floored division, two remainders, two selections). A call executes the callee's body on the
  caller's arrays, so the program is one list of 168 array operations, each writing one array of its own:
  `opsHead` (37 operations) is the six-layer network — reshape the input to 512×8192, then six times multiply by a
  weight matrix and add a bias row, with the maximum with zero after layers 1, 2, 4 and 5 — ending in the
  512×131072 array `main_v28`; `opsTail` (131 operations, in nine pieces) is everything after: the reshape to
  512×4096×32, an index vector, integer division, remainder and comparisons, three gathers of the input, an
  interpolation and two selections, ending in `main_v84`.

  `main_eq`: the program is that list run in order. `run_main`: from any memory every fair execution terminates with
  every array at the fold of the list's operations over the initial contents (`after ops`). `after_ops`: that fold is
  the tail's fold after the head's.
-/
import proofs.«127527_j4939212390683_1_alg».proof.ReferenceIdeal
import proofs.«127527_j4939212390683_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Lists run one after the other -/

/-- The fold of a concatenation is the second list's fold after the first's. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-! ## The operations -/

/-- The six layers: the reshape of the input to 512×8192, then per layer the product with the weights, the bias
    broadcast in two steps and added, and (layers 1, 2, 4, 5) the maximum with the zero array; 37 operations ending in
    the 512×131072 array `main_v28`. -/
abbrev opsHead : List (HloOp τ sig (Elt F)) :=
  ( StableHlo.reshape main_arg0 main_v0 rfl shapeCasts_S512x256x32_S512x8192
  :: StableHlo.binary main_v0 main_arg1 main_v1 ((fun l r => Host.dotGeneral dot_S512x8192_S8192x1024_S512x1024_1_0_0_1_n_n none l r) : (⟨S512x8192, .f32⟩ : BufTy).Contents (Elt F) → (⟨S8192x1024, .f32⟩ : BufTy).Contents (Elt F) → (⟨S512x1024, .f32⟩ : BufTy).Contents (Elt F))
  :: StableHlo.unary main_arg2 main_v2 (broadcastInDim S1x1024 ![1] bcast_S1024_S1x1024_1 : (⟨S1024, .f32⟩ : BufTy).Contents (Elt F) → (⟨S1x1024, .f32⟩ : BufTy).Contents (Elt F))
  :: StableHlo.unary main_v2 main_v3 (broadcastInDim S512x1024 ![0, 1] bcast_S1x1024_S512x1024_0_1 : (⟨S1x1024, .f32⟩ : BufTy).Contents (Elt F) → (⟨S512x1024, .f32⟩ : BufTy).Contents (Elt F))
  :: StableHlo.binary main_v1 main_v3 main_v4 (addf : (⟨S512x1024, .f32⟩ : BufTy).Contents (Elt F) → (⟨S512x1024, .f32⟩ : BufTy).Contents (Elt F) → (⟨S512x1024, .f32⟩ : BufTy).Contents (Elt F))
  :: StableHlo.TRef.nullary main_call0.cst (constant S_ .f32 0x00000000#32)
  :: StableHlo.TRef.unary main_call0.cst main_call0.v0 (broadcastInDim S512x1024 ![] bcast_S_S512x1024)
  :: StableHlo.TRef.binary (.of main_v4 : StableHlo.TRef sig ⟨S512x1024, .f32⟩) main_call0.v0 main_call0.v1 maximumf
  :: StableHlo.binary main_v5 main_arg3 main_v6 ((fun l r => Host.dotGeneral dot_S512x1024_S1024x512_S512x512_1_0_0_1_n_n none l r) : (⟨S512x1024, .f32⟩ : BufTy).Contents (Elt F) → (⟨S1024x512, .f32⟩ : BufTy).Contents (Elt F) → (⟨S512x512, .f32⟩ : BufTy).Contents (Elt F))
  :: StableHlo.unary main_arg4 main_v7 (broadcastInDim S1x512 ![1] bcast_S512_S1x512_1 : (⟨S512, .f32⟩ : BufTy).Contents (Elt F) → (⟨S1x512, .f32⟩ : BufTy).Contents (Elt F))
  :: StableHlo.unary main_v7 main_v8 (broadcastInDim S512x512 ![0, 1] bcast_S1x512_S512x512_0_1 : (⟨S1x512, .f32⟩ : BufTy).Contents (Elt F) → (⟨S512x512, .f32⟩ : BufTy).Contents (Elt F))
  :: StableHlo.binary main_v6 main_v8 main_v9 (addf : (⟨S512x512, .f32⟩ : BufTy).Contents (Elt F) → (⟨S512x512, .f32⟩ : BufTy).Contents (Elt F) → (⟨S512x512, .f32⟩ : BufTy).Contents (Elt F))
  :: StableHlo.TRef.nullary main_call1.cst (constant S_ .f32 0x00000000#32)
  :: StableHlo.TRef.unary main_call1.cst main_call1.v0 (broadcastInDim S512x512 ![] bcast_S_S512x512)
  :: StableHlo.TRef.binary (.of main_v9 : StableHlo.TRef sig ⟨S512x512, .f32⟩) main_call1.v0 main_call1.v1 maximumf
  :: StableHlo.binary main_v10 main_arg5 main_v11 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F))
  :: StableHlo.unary main_arg6 main_v12 (broadcastInDim S1x256 ![1] bcast_S256_S1x256_1 : (⟨S256, .f32⟩ : BufTy).Contents (Elt F) → (⟨S1x256, .f32⟩ : BufTy).Contents (Elt F))
  :: StableHlo.unary main_v12 main_v13 (broadcastInDim S512x256 ![0, 1] bcast_S1x256_S512x256_0_1 : (⟨S1x256, .f32⟩ : BufTy).Contents (Elt F) → (⟨S512x256, .f32⟩ : BufTy).Contents (Elt F))
  :: StableHlo.binary main_v11 main_v13 main_v14 (addf : (⟨S512x256, .f32⟩ : BufTy).Contents (Elt F) → (⟨S512x256, .f32⟩ : BufTy).Contents (Elt F) → (⟨S512x256, .f32⟩ : BufTy).Contents (Elt F))
  :: StableHlo.binary main_v14 main_arg7 main_v15 ((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F))
  :: StableHlo.unary main_arg8 main_v16 (broadcastInDim S1x512 ![1] bcast_S512_S1x512_1 : (⟨S512, .f32⟩ : BufTy).Contents (Elt F) → (⟨S1x512, .f32⟩ : BufTy).Contents (Elt F))
  :: StableHlo.unary main_v16 main_v17 (broadcastInDim S512x512 ![0, 1] bcast_S1x512_S512x512_0_1 : (⟨S1x512, .f32⟩ : BufTy).Contents (Elt F) → (⟨S512x512, .f32⟩ : BufTy).Contents (Elt F))
  :: StableHlo.binary main_v15 main_v17 main_v18 (addf : (⟨S512x512, .f32⟩ : BufTy).Contents (Elt F) → (⟨S512x512, .f32⟩ : BufTy).Contents (Elt F) → (⟨S512x512, .f32⟩ : BufTy).Contents (Elt F))
  :: StableHlo.TRef.nullary main_call2.cst (constant S_ .f32 0x00000000#32)
  :: StableHlo.TRef.unary main_call2.cst main_call2.v0 (broadcastInDim S512x512 ![] bcast_S_S512x512)
  :: StableHlo.TRef.binary (.of main_v18 : StableHlo.TRef sig ⟨S512x512, .f32⟩) main_call2.v0 main_call2.v1 maximumf
  :: StableHlo.binary main_v19 main_arg9 main_v20 ((fun l r => Host.dotGeneral dot_S512x512_S512x1024_S512x1024_1_0_0_1_n_n none l r) : (⟨S512x512, .f32⟩ : BufTy).Contents (Elt F) → (⟨S512x1024, .f32⟩ : BufTy).Contents (Elt F) → (⟨S512x1024, .f32⟩ : BufTy).Contents (Elt F))
  :: StableHlo.unary main_arg10 main_v21 (broadcastInDim S1x1024 ![1] bcast_S1024_S1x1024_1 : (⟨S1024, .f32⟩ : BufTy).Contents (Elt F) → (⟨S1x1024, .f32⟩ : BufTy).Contents (Elt F))
  :: StableHlo.unary main_v21 main_v22 (broadcastInDim S512x1024 ![0, 1] bcast_S1x1024_S512x1024_0_1 : (⟨S1x1024, .f32⟩ : BufTy).Contents (Elt F) → (⟨S512x1024, .f32⟩ : BufTy).Contents (Elt F))
  :: StableHlo.binary main_v20 main_v22 main_v23 (addf : (⟨S512x1024, .f32⟩ : BufTy).Contents (Elt F) → (⟨S512x1024, .f32⟩ : BufTy).Contents (Elt F) → (⟨S512x1024, .f32⟩ : BufTy).Contents (Elt F))
  :: StableHlo.TRef.nullary main_call3.cst (constant S_ .f32 0x00000000#32)
  :: StableHlo.TRef.unary main_call3.cst main_call3.v0 (broadcastInDim S512x1024 ![] bcast_S_S512x1024)
  :: StableHlo.TRef.binary (.of main_v23 : StableHlo.TRef sig ⟨S512x1024, .f32⟩) main_call3.v0 main_call3.v1 maximumf
  :: StableHlo.binary main_v24 main_arg11 main_v25 ((fun l r => Host.dotGeneral dot_S512x1024_S1024x131072_S512x131072_1_0_0_1_n_n none l r) : (⟨S512x1024, .f32⟩ : BufTy).Contents (Elt F) → (⟨S1024x131072, .f32⟩ : BufTy).Contents (Elt F) → (⟨S512x131072, .f32⟩ : BufTy).Contents (Elt F))
  :: StableHlo.unary main_arg12 main_v26 (broadcastInDim S1x131072 ![1] bcast_S131072_S1x131072_1 : (⟨S131072, .f32⟩ : BufTy).Contents (Elt F) → (⟨S1x131072, .f32⟩ : BufTy).Contents (Elt F))
  :: StableHlo.unary main_v26 main_v27 (broadcastInDim S512x131072 ![0, 1] bcast_S1x131072_S512x131072_0_1 : (⟨S1x131072, .f32⟩ : BufTy).Contents (Elt F) → (⟨S512x131072, .f32⟩ : BufTy).Contents (Elt F))
  :: StableHlo.binary main_v25 main_v27 main_v28 (addf : (⟨S512x131072, .f32⟩ : BufTy).Contents (Elt F) → (⟨S512x131072, .f32⟩ : BufTy).Contents (Elt F) → (⟨S512x131072, .f32⟩ : BufTy).Contents (Elt F))
  :: [] )
theorem opsHead_sub : (opsHead : List (HloOp τ sig (Elt F))).Forall fun op => op.bufs ⊆ tcRefs τ sig :=
  ⟨reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsHead_fresh : (opsHead : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The tail's first three operations: the reshape of the network's output to 512×4096×32, the index vector 0 … 4095, the constant 16. -/
abbrev opsTail0 : List (HloOp τ sig (Elt F)) :=
  ( StableHlo.reshape main_v28 main_v29 rfl shapeCasts_S512x131072_S512x4096x32
  :: StableHlo.nullary main_v30 (iotaInDim S4096 32 0)
  :: StableHlo.nullary main_c (constantI S_ 32 16#32)
  :: [] )
theorem opsTail0_sub : (opsTail0 : List (HloOp τ sig (Elt F))).Forall fun op => op.bufs ⊆ tcRefs τ sig :=
  ⟨reshape_bufs_sub .., nullary_bufs_sub .., nullary_bufs_sub ..⟩
theorem opsTail0_fresh : (opsTail0 : List (HloOp τ sig (Elt F))).Forall fun op => op.fresh = ∅ :=
  ⟨rfl, rfl, rfl⟩

/-- The floored division of the index vector by 16 (17 operations; its last is a select). -/
abbrev opsTail1 : List (HloOp τ sig (Elt F)) :=
  ( StableHlo.TRef.unary (.of main_c : StableHlo.TRef sig ⟨S_, .i32⟩) main_call4.v0 id
  :: StableHlo.TRef.unary main_call4.v0 main_call4.v1 (broadcastInDim S4096 ![] bcast_S_S4096)
  :: StableHlo.TRef.binary (.of main_v30 : StableHlo.TRef sig ⟨S4096, .i32⟩) main_call4.v1 main_call4.v2 Host.divsi
  :: StableHlo.TRef.unary (.of main_v30 : StableHlo.TRef sig ⟨S4096, .i32⟩) main_call4.v3 signi
  :: StableHlo.TRef.unary main_call4.v0 main_call4.v4 signi
  :: StableHlo.TRef.unary main_call4.v4 main_call4.v5 (broadcastInDim S4096 ![] bcast_S_S4096)
  :: StableHlo.TRef.binary main_call4.v3 main_call4.v5 main_call4.v6 (cmpi .ne)
  :: StableHlo.TRef.unary main_call4.v0 main_call4.v7 (broadcastInDim S4096 ![] bcast_S_S4096)
  :: StableHlo.TRef.binary (.of main_v30 : StableHlo.TRef sig ⟨S4096, .i32⟩) main_call4.v7 main_call4.v8 Host.remsi
  :: StableHlo.TRef.nullary main_call4.c (constantI S_ 32 0#32)
  :: StableHlo.TRef.unary main_call4.c main_call4.v9 (broadcastInDim S4096 ![] bcast_S_S4096)
  :: StableHlo.TRef.binary main_call4.v8 main_call4.v9 main_call4.v10 (cmpi .ne)
  :: StableHlo.TRef.binary main_call4.v6 main_call4.v10 main_call4.v11 andi
  :: StableHlo.TRef.nullary main_call4.c_0 (constantI S_ 32 1#32)
  :: StableHlo.TRef.unary main_call4.c_0 main_call4.v12 (broadcastInDim S4096 ![] bcast_S_S4096)
  :: StableHlo.TRef.binary main_call4.v2 main_call4.v12 main_call4.v13 subi
  :: StableHlo.TRef.ternary main_call4.v11 main_call4.v13 main_call4.v2 main_call4.call0.v0 select
  :: [] )
theorem opsTail1_sub : (opsTail1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsTail1_fresh : (opsTail1 : List (HloOp τ sig (Elt F))).Forall fun op => op.fresh = ∅ :=
  ⟨rfl, rfl, rfl, rfl, rfl, rfl, rfl, rfl, rfl, rfl, rfl, rfl, rfl, rfl, rfl, rfl, rfl⟩

/-- The constant 16 again. -/
abbrev opsTail2 : List (HloOp τ sig (Elt F)) :=
  ( StableHlo.nullary main_c_0 (constantI S_ 32 16#32)
  :: [] )
theorem opsTail2_sub : (opsTail2 : List (HloOp τ sig (Elt F))).Forall fun op => op.bufs ⊆ tcRefs τ sig :=
  nullary_bufs_sub ..
theorem opsTail2_fresh : (opsTail2 : List (HloOp τ sig (Elt F))).Forall fun op => op.fresh = ∅ :=
  rfl

/-- The remainder of the index vector modulo 16, with the sign of the divisor (21 operations). -/
abbrev opsTail3 : List (HloOp τ sig (Elt F)) :=
  ( StableHlo.TRef.unary (.of main_c_0 : StableHlo.TRef sig ⟨S_, .i32⟩) main_call5.v0 id
  :: StableHlo.TRef.nullary main_call5.c (constantI S_ 32 0#32)
  :: StableHlo.TRef.binary main_call5.v0 main_call5.c main_call5.v1 (cmpi .eq)
  :: StableHlo.TRef.nullary main_call5.c_0 (constantI S_ 32 1#32)
  :: StableHlo.TRef.ternary main_call5.v1 main_call5.c_0 main_call5.v0 main_call5.call0.v0 select
  :: StableHlo.TRef.unary main_call5.call0.v0 main_call5.v3 (broadcastInDim S4096 ![] bcast_S_S4096)
  :: StableHlo.TRef.binary (.of main_v30 : StableHlo.TRef sig ⟨S4096, .i32⟩) main_call5.v3 main_call5.v4 Host.remsi
  :: StableHlo.TRef.nullary main_call5.c_1 (constantI S_ 32 0#32)
  :: StableHlo.TRef.unary main_call5.c_1 main_call5.v5 (broadcastInDim S4096 ![] bcast_S_S4096)
  :: StableHlo.TRef.binary main_call5.v4 main_call5.v5 main_call5.v6 (cmpi .ne)
  :: StableHlo.TRef.nullary main_call5.c_2 (constantI S_ 32 0#32)
  :: StableHlo.TRef.unary main_call5.c_2 main_call5.v7 (broadcastInDim S4096 ![] bcast_S_S4096)
  :: StableHlo.TRef.binary main_call5.v4 main_call5.v7 main_call5.v8 (cmpi .slt)
  :: StableHlo.TRef.nullary main_call5.c_3 (constantI S_ 32 0#32)
  :: StableHlo.TRef.binary main_call5.call0.v0 main_call5.c_3 main_call5.v9 (cmpi .slt)
  :: StableHlo.TRef.unary main_call5.v9 main_call5.v10 (broadcastInDim S4096 ![] bcast_S_S4096)
  :: StableHlo.TRef.binary main_call5.v8 main_call5.v10 main_call5.v11 (cmpi .ne)
  :: StableHlo.TRef.binary main_call5.v11 main_call5.v6 main_call5.v12 andi
  :: StableHlo.TRef.unary main_call5.call0.v0 main_call5.v13 (broadcastInDim S4096 ![] bcast_S_S4096)
  :: StableHlo.TRef.binary main_call5.v4 main_call5.v13 main_call5.v14 addi
  :: StableHlo.TRef.ternary main_call5.v12 main_call5.v14 main_call5.v4 main_call5.v15 select
  :: [] )
theorem opsTail3_sub : (opsTail3 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsTail3_fresh : (opsTail3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Twelve operations: the comparisons of the remainder with zero and of the index with 4080, their conjunction, the quotient capped at 254, the constant 16. -/
abbrev opsTail4 : List (HloOp τ sig (Elt F)) :=
  ( StableHlo.nullary main_c_1 (constantI S_ 32 0#32)
  :: StableHlo.unary main_c_1 main_v33 (broadcastInDim S4096 ![] bcast_S_S4096 : (⟨S_, .i32⟩ : BufTy).Contents (Elt F) → (⟨S4096, .i32⟩ : BufTy).Contents (Elt F))
  :: StableHlo.binary main_v32 main_v33 main_v34 (cmpi .eq : (⟨S4096, .i32⟩ : BufTy).Contents (Elt F) → (⟨S4096, .i32⟩ : BufTy).Contents (Elt F) → (⟨S4096, .i1⟩ : BufTy).Contents (Elt F))
  :: StableHlo.unary main_v34 main_v35 (noti : (⟨S4096, .i1⟩ : BufTy).Contents (Elt F) → (⟨S4096, .i1⟩ : BufTy).Contents (Elt F))
  :: StableHlo.nullary main_c_2 (constantI S_ 32 4080#32)
  :: StableHlo.unary main_c_2 main_v36 (broadcastInDim S4096 ![] bcast_S_S4096 : (⟨S_, .i32⟩ : BufTy).Contents (Elt F) → (⟨S4096, .i32⟩ : BufTy).Contents (Elt F))
  :: StableHlo.binary main_v30 main_v36 main_v37 (cmpi .slt : (⟨S4096, .i32⟩ : BufTy).Contents (Elt F) → (⟨S4096, .i32⟩ : BufTy).Contents (Elt F) → (⟨S4096, .i1⟩ : BufTy).Contents (Elt F))
  :: StableHlo.binary main_v35 main_v37 main_v38 (andi : (⟨S4096, .i1⟩ : BufTy).Contents (Elt F) → (⟨S4096, .i1⟩ : BufTy).Contents (Elt F) → (⟨S4096, .i1⟩ : BufTy).Contents (Elt F))
  :: StableHlo.nullary main_c_3 (constantI S_ 32 254#32)
  :: StableHlo.unary main_c_3 main_v39 (broadcastInDim S4096 ![] bcast_S_S4096 : (⟨S_, .i32⟩ : BufTy).Contents (Elt F) → (⟨S4096, .i32⟩ : BufTy).Contents (Elt F))
  :: StableHlo.binary main_v31 main_v39 main_v40 (minsi : (⟨S4096, .i32⟩ : BufTy).Contents (Elt F) → (⟨S4096, .i32⟩ : BufTy).Contents (Elt F) → (⟨S4096, .i32⟩ : BufTy).Contents (Elt F))
  :: StableHlo.nullary main_c_4 (constantI S_ 32 16#32)
  :: [] )
theorem opsTail4_sub : (opsTail4 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub ..⟩
theorem opsTail4_fresh : (opsTail4 : List (HloOp τ sig (Elt F))).Forall fun op => op.fresh = ∅ :=
  ⟨rfl, rfl, rfl, rfl, rfl, rfl, rfl, rfl, rfl, rfl, rfl, rfl⟩

/-- The remainder modulo 16 once more (21 operations), for the interpolation weight. -/
abbrev opsTail5 : List (HloOp τ sig (Elt F)) :=
  ( StableHlo.TRef.unary (.of main_c_4 : StableHlo.TRef sig ⟨S_, .i32⟩) main_call6.v0 id
  :: StableHlo.TRef.nullary main_call6.c (constantI S_ 32 0#32)
  :: StableHlo.TRef.binary main_call6.v0 main_call6.c main_call6.v1 (cmpi .eq)
  :: StableHlo.TRef.nullary main_call6.c_0 (constantI S_ 32 1#32)
  :: StableHlo.TRef.ternary main_call6.v1 main_call6.c_0 main_call6.v0 main_call6.call0.v0 select
  :: StableHlo.TRef.unary main_call6.call0.v0 main_call6.v3 (broadcastInDim S4096 ![] bcast_S_S4096)
  :: StableHlo.TRef.binary (.of main_v30 : StableHlo.TRef sig ⟨S4096, .i32⟩) main_call6.v3 main_call6.v4 Host.remsi
  :: StableHlo.TRef.nullary main_call6.c_1 (constantI S_ 32 0#32)
  :: StableHlo.TRef.unary main_call6.c_1 main_call6.v5 (broadcastInDim S4096 ![] bcast_S_S4096)
  :: StableHlo.TRef.binary main_call6.v4 main_call6.v5 main_call6.v6 (cmpi .ne)
  :: StableHlo.TRef.nullary main_call6.c_2 (constantI S_ 32 0#32)
  :: StableHlo.TRef.unary main_call6.c_2 main_call6.v7 (broadcastInDim S4096 ![] bcast_S_S4096)
  :: StableHlo.TRef.binary main_call6.v4 main_call6.v7 main_call6.v8 (cmpi .slt)
  :: StableHlo.TRef.nullary main_call6.c_3 (constantI S_ 32 0#32)
  :: StableHlo.TRef.binary main_call6.call0.v0 main_call6.c_3 main_call6.v9 (cmpi .slt)
  :: StableHlo.TRef.unary main_call6.v9 main_call6.v10 (broadcastInDim S4096 ![] bcast_S_S4096)
  :: StableHlo.TRef.binary main_call6.v8 main_call6.v10 main_call6.v11 (cmpi .ne)
  :: StableHlo.TRef.binary main_call6.v11 main_call6.v6 main_call6.v12 andi
  :: StableHlo.TRef.unary main_call6.call0.v0 main_call6.v13 (broadcastInDim S4096 ![] bcast_S_S4096)
  :: StableHlo.TRef.binary main_call6.v4 main_call6.v13 main_call6.v14 addi
  :: StableHlo.TRef.ternary main_call6.v12 main_call6.v14 main_call6.v4 main_call6.v15 select
  :: [] )
theorem opsTail5_sub : (opsTail5 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsTail5_fresh : (opsTail5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Fifty-two operations: the weight, the three row indices and the three gathers of the input, the interpolation, the blend with the network's output, and the two masks broadcast to 1×4096×1. -/
abbrev opsTail6 : List (HloOp τ sig (Elt F)) :=
  ( StableHlo.unary main_v41 main_v42 (sitofp .f32 : (⟨S4096, .i32⟩ : BufTy).Contents (Elt F) → (⟨S4096, .f32⟩ : BufTy).Contents (Elt F))
  :: StableHlo.nullary main_cst (constant S_ .f32 0x41800000#32)
  :: StableHlo.unary main_cst main_v43 (broadcastInDim S4096 ![] bcast_S_S4096 : (⟨S_, .f32⟩ : BufTy).Contents (Elt F) → (⟨S4096, .f32⟩ : BufTy).Contents (Elt F))
  :: StableHlo.binary main_v42 main_v43 main_v44 (Host.divf : (⟨S4096, .f32⟩ : BufTy).Contents (Elt F) → (⟨S4096, .f32⟩ : BufTy).Contents (Elt F) → (⟨S4096, .f32⟩ : BufTy).Contents (Elt F))
  :: StableHlo.unary main_v44 main_v45 (broadcastInDim S1x4096x1 ![1] bcast_S4096_S1x4096x1_1 : (⟨S4096, .f32⟩ : BufTy).Contents (Elt F) → (⟨S1x4096x1, .f32⟩ : BufTy).Contents (Elt F))
  :: StableHlo.nullary main_c_5 (constantI S_ 32 0#32)
  :: StableHlo.unary main_c_5 main_v46 (broadcastInDim S4096 ![] bcast_S_S4096 : (⟨S_, .i32⟩ : BufTy).Contents (Elt F) → (⟨S4096, .i32⟩ : BufTy).Contents (Elt F))
  :: StableHlo.binary main_v40 main_v46 main_v47 (cmpi .slt : (⟨S4096, .i32⟩ : BufTy).Contents (Elt F) → (⟨S4096, .i32⟩ : BufTy).Contents (Elt F) → (⟨S4096, .i1⟩ : BufTy).Contents (Elt F))
  :: StableHlo.nullary main_c_6 (constantI S_ 32 256#32)
  :: StableHlo.unary main_c_6 main_v48 (broadcastInDim S4096 ![] bcast_S_S4096 : (⟨S_, .i32⟩ : BufTy).Contents (Elt F) → (⟨S4096, .i32⟩ : BufTy).Contents (Elt F))
  :: StableHlo.binary main_v40 main_v48 main_v49 (addi : (⟨S4096, .i32⟩ : BufTy).Contents (Elt F) → (⟨S4096, .i32⟩ : BufTy).Contents (Elt F) → (⟨S4096, .i32⟩ : BufTy).Contents (Elt F))
  :: StableHlo.ternary main_v47 main_v49 main_v40 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v50 main_v51 (broadcastInDim S4096x1 ![0] bcast_S4096_S4096x1_0 : (⟨S4096, .i32⟩ : BufTy).Contents (Elt F) → (⟨S4096x1, .i32⟩ : BufTy).Contents (Elt F))
  :: StableHlo.binary main_arg0 main_v51 main_v52 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.nullary main_c_7 (constantI S_ 32 1#32)
  :: StableHlo.unary main_c_7 main_v53 (broadcastInDim S4096 ![] bcast_S_S4096 : (⟨S_, .i32⟩ : BufTy).Contents (Elt F) → (⟨S4096, .i32⟩ : BufTy).Contents (Elt F))
  :: StableHlo.binary main_v40 main_v53 main_v54 (addi : (⟨S4096, .i32⟩ : BufTy).Contents (Elt F) → (⟨S4096, .i32⟩ : BufTy).Contents (Elt F) → (⟨S4096, .i32⟩ : BufTy).Contents (Elt F))
  :: StableHlo.nullary main_c_8 (constantI S_ 32 0#32)
  :: StableHlo.unary main_c_8 main_v55 (broadcastInDim S4096 ![] bcast_S_S4096 : (⟨S_, .i32⟩ : BufTy).Contents (Elt F) → (⟨S4096, .i32⟩ : BufTy).Contents (Elt F))
  :: StableHlo.binary main_v54 main_v55 main_v56 (cmpi .slt : (⟨S4096, .i32⟩ : BufTy).Contents (Elt F) → (⟨S4096, .i32⟩ : BufTy).Contents (Elt F) → (⟨S4096, .i1⟩ : BufTy).Contents (Elt F))
  :: StableHlo.nullary main_c_9 (constantI S_ 32 256#32)
  :: StableHlo.unary main_c_9 main_v57 (broadcastInDim S4096 ![] bcast_S_S4096 : (⟨S_, .i32⟩ : BufTy).Contents (Elt F) → (⟨S4096, .i32⟩ : BufTy).Contents (Elt F))
  :: StableHlo.binary main_v54 main_v57 main_v58 (addi : (⟨S4096, .i32⟩ : BufTy).Contents (Elt F) → (⟨S4096, .i32⟩ : BufTy).Contents (Elt F) → (⟨S4096, .i32⟩ : BufTy).Contents (Elt F))
  :: StableHlo.ternary main_v56 main_v58 main_v54 main_v59 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v59 main_v60 (broadcastInDim S4096x1 ![0] bcast_S4096_S4096x1_0 : (⟨S4096, .i32⟩ : BufTy).Contents (Elt F) → (⟨S4096x1, .i32⟩ : BufTy).Contents (Elt F))
  :: StableHlo.binary main_arg0 main_v60 main_v61 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.nullary main_cst_10 (constant S_ .f32 0x3F800000#32)
  :: StableHlo.unary main_cst_10 main_v62 (broadcastInDim S1x4096x1 ![] bcast_S_S1x4096x1 : (⟨S_, .f32⟩ : BufTy).Contents (Elt F) → (⟨S1x4096x1, .f32⟩ : BufTy).Contents (Elt F))
  :: StableHlo.binary main_v62 main_v45 main_v63 (subf : (⟨S1x4096x1, .f32⟩ : BufTy).Contents (Elt F) → (⟨S1x4096x1, .f32⟩ : BufTy).Contents (Elt F) → (⟨S1x4096x1, .f32⟩ : BufTy).Contents (Elt F))
  :: StableHlo.unary main_v63 main_v64 (broadcastInDim S512x4096x32 ![0, 1, 2] bcast_S1x4096x1_S512x4096x32_0_1_2 : (⟨S1x4096x1, .f32⟩ : BufTy).Contents (Elt F) → (⟨S512x4096x32, .f32⟩ : BufTy).Contents (Elt F))
  :: StableHlo.binary main_v64 main_v52 main_v65 (mulf : (⟨S512x4096x32, .f32⟩ : BufTy).Contents (Elt F) → (⟨S512x4096x32, .f32⟩ : BufTy).Contents (Elt F) → (⟨S512x4096x32, .f32⟩ : BufTy).Contents (Elt F))
  :: StableHlo.unary main_v45 main_v66 (broadcastInDim S512x4096x32 ![0, 1, 2] bcast_S1x4096x1_S512x4096x32_0_1_2 : (⟨S1x4096x1, .f32⟩ : BufTy).Contents (Elt F) → (⟨S512x4096x32, .f32⟩ : BufTy).Contents (Elt F))
  :: StableHlo.binary main_v66 main_v61 main_v67 (mulf : (⟨S512x4096x32, .f32⟩ : BufTy).Contents (Elt F) → (⟨S512x4096x32, .f32⟩ : BufTy).Contents (Elt F) → (⟨S512x4096x32, .f32⟩ : BufTy).Contents (Elt F))
  :: StableHlo.binary main_v65 main_v67 main_v68 (addf : (⟨S512x4096x32, .f32⟩ : BufTy).Contents (Elt F) → (⟨S512x4096x32, .f32⟩ : BufTy).Contents (Elt F) → (⟨S512x4096x32, .f32⟩ : BufTy).Contents (Elt F))
  :: StableHlo.nullary main_cst_11 (constant S_ .f32 0x3F4CCCCD#32)
  :: StableHlo.unary main_cst_11 main_v69 (broadcastInDim S512x4096x32 ![] bcast_S_S512x4096x32 : (⟨S_, .f32⟩ : BufTy).Contents (Elt F) → (⟨S512x4096x32, .f32⟩ : BufTy).Contents (Elt F))
  :: StableHlo.binary main_v69 main_v68 main_v70 (mulf : (⟨S512x4096x32, .f32⟩ : BufTy).Contents (Elt F) → (⟨S512x4096x32, .f32⟩ : BufTy).Contents (Elt F) → (⟨S512x4096x32, .f32⟩ : BufTy).Contents (Elt F))
  :: StableHlo.nullary main_cst_12 (constant S_ .f32 0x3E4CCCCD#32)
  :: StableHlo.unary main_cst_12 main_v71 (broadcastInDim S512x4096x32 ![] bcast_S_S512x4096x32 : (⟨S_, .f32⟩ : BufTy).Contents (Elt F) → (⟨S512x4096x32, .f32⟩ : BufTy).Contents (Elt F))
  :: StableHlo.binary main_v71 main_v29 main_v72 (mulf : (⟨S512x4096x32, .f32⟩ : BufTy).Contents (Elt F) → (⟨S512x4096x32, .f32⟩ : BufTy).Contents (Elt F) → (⟨S512x4096x32, .f32⟩ : BufTy).Contents (Elt F))
  :: StableHlo.binary main_v70 main_v72 main_v73 (addf : (⟨S512x4096x32, .f32⟩ : BufTy).Contents (Elt F) → (⟨S512x4096x32, .f32⟩ : BufTy).Contents (Elt F) → (⟨S512x4096x32, .f32⟩ : BufTy).Contents (Elt F))
  :: StableHlo.nullary main_c_13 (constantI S_ 32 0#32)
  :: StableHlo.unary main_c_13 main_v74 (broadcastInDim S4096 ![] bcast_S_S4096 : (⟨S_, .i32⟩ : BufTy).Contents (Elt F) → (⟨S4096, .i32⟩ : BufTy).Contents (Elt F))
  :: StableHlo.binary main_v31 main_v74 main_v75 (cmpi .slt : (⟨S4096, .i32⟩ : BufTy).Contents (Elt F) → (⟨S4096, .i32⟩ : BufTy).Contents (Elt F) → (⟨S4096, .i1⟩ : BufTy).Contents (Elt F))
  :: StableHlo.nullary main_c_14 (constantI S_ 32 256#32)
  :: StableHlo.unary main_c_14 main_v76 (broadcastInDim S4096 ![] bcast_S_S4096 : (⟨S_, .i32⟩ : BufTy).Contents (Elt F) → (⟨S4096, .i32⟩ : BufTy).Contents (Elt F))
  :: StableHlo.binary main_v31 main_v76 main_v77 (addi : (⟨S4096, .i32⟩ : BufTy).Contents (Elt F) → (⟨S4096, .i32⟩ : BufTy).Contents (Elt F) → (⟨S4096, .i32⟩ : BufTy).Contents (Elt F))
  :: StableHlo.ternary main_v75 main_v77 main_v31 main_v78 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v78 main_v79 (broadcastInDim S4096x1 ![0] bcast_S4096_S4096x1_0 : (⟨S4096, .i32⟩ : BufTy).Contents (Elt F) → (⟨S4096x1, .i32⟩ : BufTy).Contents (Elt F))
  :: StableHlo.binary main_arg0 main_v79 main_v80 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.unary main_v34 main_v81 (broadcastInDim S1x4096x1 ![1] bcast_S4096_S1x4096x1_1 : (⟨S4096, .i1⟩ : BufTy).Contents (Elt F) → (⟨S1x4096x1, .i1⟩ : BufTy).Contents (Elt F))
  :: StableHlo.unary main_v38 main_v82 (broadcastInDim S1x4096x1 ![1] bcast_S4096_S1x4096x1_1 : (⟨S4096, .i1⟩ : BufTy).Contents (Elt F) → (⟨S1x4096x1, .i1⟩ : BufTy).Contents (Elt F))
  :: [] )
theorem opsTail6_sub : (opsTail6 : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
theorem opsTail6_fresh : (opsTail6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The first twelve operations of `opsTail6`: up to the first row index (the program's text is cut in two windows after them). -/
abbrev opsTail6a : List (HloOp τ sig (Elt F)) :=
  ( StableHlo.unary main_v41 main_v42 (sitofp .f32 : (⟨S4096, .i32⟩ : BufTy).Contents (Elt F) → (⟨S4096, .f32⟩ : BufTy).Contents (Elt F))
  :: StableHlo.nullary main_cst (constant S_ .f32 0x41800000#32)
  :: StableHlo.unary main_cst main_v43 (broadcastInDim S4096 ![] bcast_S_S4096 : (⟨S_, .f32⟩ : BufTy).Contents (Elt F) → (⟨S4096, .f32⟩ : BufTy).Contents (Elt F))
  :: StableHlo.binary main_v42 main_v43 main_v44 (Host.divf : (⟨S4096, .f32⟩ : BufTy).Contents (Elt F) → (⟨S4096, .f32⟩ : BufTy).Contents (Elt F) → (⟨S4096, .f32⟩ : BufTy).Contents (Elt F))
  :: StableHlo.unary main_v44 main_v45 (broadcastInDim S1x4096x1 ![1] bcast_S4096_S1x4096x1_1 : (⟨S4096, .f32⟩ : BufTy).Contents (Elt F) → (⟨S1x4096x1, .f32⟩ : BufTy).Contents (Elt F))
  :: StableHlo.nullary main_c_5 (constantI S_ 32 0#32)
  :: StableHlo.unary main_c_5 main_v46 (broadcastInDim S4096 ![] bcast_S_S4096 : (⟨S_, .i32⟩ : BufTy).Contents (Elt F) → (⟨S4096, .i32⟩ : BufTy).Contents (Elt F))
  :: StableHlo.binary main_v40 main_v46 main_v47 (cmpi .slt : (⟨S4096, .i32⟩ : BufTy).Contents (Elt F) → (⟨S4096, .i32⟩ : BufTy).Contents (Elt F) → (⟨S4096, .i1⟩ : BufTy).Contents (Elt F))
  :: StableHlo.nullary main_c_6 (constantI S_ 32 256#32)
  :: StableHlo.unary main_c_6 main_v48 (broadcastInDim S4096 ![] bcast_S_S4096 : (⟨S_, .i32⟩ : BufTy).Contents (Elt F) → (⟨S4096, .i32⟩ : BufTy).Contents (Elt F))
  :: StableHlo.binary main_v40 main_v48 main_v49 (addi : (⟨S4096, .i32⟩ : BufTy).Contents (Elt F) → (⟨S4096, .i32⟩ : BufTy).Contents (Elt F) → (⟨S4096, .i32⟩ : BufTy).Contents (Elt F))
  :: StableHlo.ternary main_v47 main_v49 main_v40 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: [] )
theorem opsTail6a_sub : (opsTail6a : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩
theorem opsTail6a_fresh : (opsTail6a : List (HloOp τ sig (Elt F))).Forall fun op => op.fresh = ∅ :=
  ⟨rfl, rfl, rfl, rfl, rfl, rfl, rfl, rfl, rfl, rfl, rfl, rfl⟩

/-- The other forty operations of `opsTail6`. -/
abbrev opsTail6b : List (HloOp τ sig (Elt F)) :=
  ( StableHlo.unary main_v50 main_v51 (broadcastInDim S4096x1 ![0] bcast_S4096_S4096x1_0 : (⟨S4096, .i32⟩ : BufTy).Contents (Elt F) → (⟨S4096x1, .i32⟩ : BufTy).Contents (Elt F))
  :: StableHlo.binary main_arg0 main_v51 main_v52 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.nullary main_c_7 (constantI S_ 32 1#32)
  :: StableHlo.unary main_c_7 main_v53 (broadcastInDim S4096 ![] bcast_S_S4096 : (⟨S_, .i32⟩ : BufTy).Contents (Elt F) → (⟨S4096, .i32⟩ : BufTy).Contents (Elt F))
  :: StableHlo.binary main_v40 main_v53 main_v54 (addi : (⟨S4096, .i32⟩ : BufTy).Contents (Elt F) → (⟨S4096, .i32⟩ : BufTy).Contents (Elt F) → (⟨S4096, .i32⟩ : BufTy).Contents (Elt F))
  :: StableHlo.nullary main_c_8 (constantI S_ 32 0#32)
  :: StableHlo.unary main_c_8 main_v55 (broadcastInDim S4096 ![] bcast_S_S4096 : (⟨S_, .i32⟩ : BufTy).Contents (Elt F) → (⟨S4096, .i32⟩ : BufTy).Contents (Elt F))
  :: StableHlo.binary main_v54 main_v55 main_v56 (cmpi .slt : (⟨S4096, .i32⟩ : BufTy).Contents (Elt F) → (⟨S4096, .i32⟩ : BufTy).Contents (Elt F) → (⟨S4096, .i1⟩ : BufTy).Contents (Elt F))
  :: StableHlo.nullary main_c_9 (constantI S_ 32 256#32)
  :: StableHlo.unary main_c_9 main_v57 (broadcastInDim S4096 ![] bcast_S_S4096 : (⟨S_, .i32⟩ : BufTy).Contents (Elt F) → (⟨S4096, .i32⟩ : BufTy).Contents (Elt F))
  :: StableHlo.binary main_v54 main_v57 main_v58 (addi : (⟨S4096, .i32⟩ : BufTy).Contents (Elt F) → (⟨S4096, .i32⟩ : BufTy).Contents (Elt F) → (⟨S4096, .i32⟩ : BufTy).Contents (Elt F))
  :: StableHlo.ternary main_v56 main_v58 main_v54 main_v59 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v59 main_v60 (broadcastInDim S4096x1 ![0] bcast_S4096_S4096x1_0 : (⟨S4096, .i32⟩ : BufTy).Contents (Elt F) → (⟨S4096x1, .i32⟩ : BufTy).Contents (Elt F))
  :: StableHlo.binary main_arg0 main_v60 main_v61 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.nullary main_cst_10 (constant S_ .f32 0x3F800000#32)
  :: StableHlo.unary main_cst_10 main_v62 (broadcastInDim S1x4096x1 ![] bcast_S_S1x4096x1 : (⟨S_, .f32⟩ : BufTy).Contents (Elt F) → (⟨S1x4096x1, .f32⟩ : BufTy).Contents (Elt F))
  :: StableHlo.binary main_v62 main_v45 main_v63 (subf : (⟨S1x4096x1, .f32⟩ : BufTy).Contents (Elt F) → (⟨S1x4096x1, .f32⟩ : BufTy).Contents (Elt F) → (⟨S1x4096x1, .f32⟩ : BufTy).Contents (Elt F))
  :: StableHlo.unary main_v63 main_v64 (broadcastInDim S512x4096x32 ![0, 1, 2] bcast_S1x4096x1_S512x4096x32_0_1_2 : (⟨S1x4096x1, .f32⟩ : BufTy).Contents (Elt F) → (⟨S512x4096x32, .f32⟩ : BufTy).Contents (Elt F))
  :: StableHlo.binary main_v64 main_v52 main_v65 (mulf : (⟨S512x4096x32, .f32⟩ : BufTy).Contents (Elt F) → (⟨S512x4096x32, .f32⟩ : BufTy).Contents (Elt F) → (⟨S512x4096x32, .f32⟩ : BufTy).Contents (Elt F))
  :: StableHlo.unary main_v45 main_v66 (broadcastInDim S512x4096x32 ![0, 1, 2] bcast_S1x4096x1_S512x4096x32_0_1_2 : (⟨S1x4096x1, .f32⟩ : BufTy).Contents (Elt F) → (⟨S512x4096x32, .f32⟩ : BufTy).Contents (Elt F))
  :: StableHlo.binary main_v66 main_v61 main_v67 (mulf : (⟨S512x4096x32, .f32⟩ : BufTy).Contents (Elt F) → (⟨S512x4096x32, .f32⟩ : BufTy).Contents (Elt F) → (⟨S512x4096x32, .f32⟩ : BufTy).Contents (Elt F))
  :: StableHlo.binary main_v65 main_v67 main_v68 (addf : (⟨S512x4096x32, .f32⟩ : BufTy).Contents (Elt F) → (⟨S512x4096x32, .f32⟩ : BufTy).Contents (Elt F) → (⟨S512x4096x32, .f32⟩ : BufTy).Contents (Elt F))
  :: StableHlo.nullary main_cst_11 (constant S_ .f32 0x3F4CCCCD#32)
  :: StableHlo.unary main_cst_11 main_v69 (broadcastInDim S512x4096x32 ![] bcast_S_S512x4096x32 : (⟨S_, .f32⟩ : BufTy).Contents (Elt F) → (⟨S512x4096x32, .f32⟩ : BufTy).Contents (Elt F))
  :: StableHlo.binary main_v69 main_v68 main_v70 (mulf : (⟨S512x4096x32, .f32⟩ : BufTy).Contents (Elt F) → (⟨S512x4096x32, .f32⟩ : BufTy).Contents (Elt F) → (⟨S512x4096x32, .f32⟩ : BufTy).Contents (Elt F))
  :: StableHlo.nullary main_cst_12 (constant S_ .f32 0x3E4CCCCD#32)
  :: StableHlo.unary main_cst_12 main_v71 (broadcastInDim S512x4096x32 ![] bcast_S_S512x4096x32 : (⟨S_, .f32⟩ : BufTy).Contents (Elt F) → (⟨S512x4096x32, .f32⟩ : BufTy).Contents (Elt F))
  :: StableHlo.binary main_v71 main_v29 main_v72 (mulf : (⟨S512x4096x32, .f32⟩ : BufTy).Contents (Elt F) → (⟨S512x4096x32, .f32⟩ : BufTy).Contents (Elt F) → (⟨S512x4096x32, .f32⟩ : BufTy).Contents (Elt F))
  :: StableHlo.binary main_v70 main_v72 main_v73 (addf : (⟨S512x4096x32, .f32⟩ : BufTy).Contents (Elt F) → (⟨S512x4096x32, .f32⟩ : BufTy).Contents (Elt F) → (⟨S512x4096x32, .f32⟩ : BufTy).Contents (Elt F))
  :: StableHlo.nullary main_c_13 (constantI S_ 32 0#32)
  :: StableHlo.unary main_c_13 main_v74 (broadcastInDim S4096 ![] bcast_S_S4096 : (⟨S_, .i32⟩ : BufTy).Contents (Elt F) → (⟨S4096, .i32⟩ : BufTy).Contents (Elt F))
  :: StableHlo.binary main_v31 main_v74 main_v75 (cmpi .slt : (⟨S4096, .i32⟩ : BufTy).Contents (Elt F) → (⟨S4096, .i32⟩ : BufTy).Contents (Elt F) → (⟨S4096, .i1⟩ : BufTy).Contents (Elt F))
  :: StableHlo.nullary main_c_14 (constantI S_ 32 256#32)
  :: StableHlo.unary main_c_14 main_v76 (broadcastInDim S4096 ![] bcast_S_S4096 : (⟨S_, .i32⟩ : BufTy).Contents (Elt F) → (⟨S4096, .i32⟩ : BufTy).Contents (Elt F))
  :: StableHlo.binary main_v31 main_v76 main_v77 (addi : (⟨S4096, .i32⟩ : BufTy).Contents (Elt F) → (⟨S4096, .i32⟩ : BufTy).Contents (Elt F) → (⟨S4096, .i32⟩ : BufTy).Contents (Elt F))
  :: StableHlo.ternary main_v75 main_v77 main_v31 main_v78 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v78 main_v79 (broadcastInDim S4096x1 ![0] bcast_S4096_S4096x1_0 : (⟨S4096, .i32⟩ : BufTy).Contents (Elt F) → (⟨S4096x1, .i32⟩ : BufTy).Contents (Elt F))
  :: StableHlo.binary main_arg0 main_v79 main_v80 ((fun x i => Host.gather gather_S512x256x32_S4096x1_S512x4096x32_02_1_n_n_1_1_512132 x i) : (⟨S512x256x32, .f32⟩ : BufTy).Contents (Elt F) → (⟨S4096x1, .i32⟩ : BufTy).Contents (Elt F) → (⟨S512x4096x32, .f32⟩ : BufTy).Contents (Elt F))
  :: StableHlo.unary main_v34 main_v81 (broadcastInDim S1x4096x1 ![1] bcast_S4096_S1x4096x1_1 : (⟨S4096, .i1⟩ : BufTy).Contents (Elt F) → (⟨S1x4096x1, .i1⟩ : BufTy).Contents (Elt F))
  :: StableHlo.unary main_v38 main_v82 (broadcastInDim S1x4096x1 ![1] bcast_S4096_S1x4096x1_1 : (⟨S4096, .i1⟩ : BufTy).Contents (Elt F) → (⟨S1x4096x1, .i1⟩ : BufTy).Contents (Elt F))
  :: [] )
theorem opsTail6b_sub : (opsTail6b : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
theorem opsTail6b_fresh : (opsTail6b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The first selection (2 operations): where the second mask holds the blend, elsewhere the network's output. -/
abbrev opsTail7 : List (HloOp τ sig (Elt F)) :=
  ( StableHlo.TRef.unary (.of main_v82 : StableHlo.TRef sig ⟨S1x4096x1, .i1⟩) main_call7.v0 (broadcastInDim S512x4096x32 ![0, 1, 2] bcast_S1x4096x1_S512x4096x32_0_1_2)
  :: StableHlo.TRef.ternary main_call7.v0 (.of main_v73 : StableHlo.TRef sig ⟨S512x4096x32, .f32⟩) (.of main_v29 : StableHlo.TRef sig ⟨S512x4096x32, .f32⟩) main_call7.v1 select
  :: [] )
theorem opsTail7_sub : (opsTail7 : List (HloOp τ sig (Elt F))).Forall fun op => op.bufs ⊆ tcRefs τ sig :=
  ⟨unary_bufs_sub .., ternary_bufs_sub ..⟩
theorem opsTail7_fresh : (opsTail7 : List (HloOp τ sig (Elt F))).Forall fun op => op.fresh = ∅ :=
  ⟨rfl, rfl⟩

/-- The second selection (2 operations): where the first mask holds the gathered rows, elsewhere the first selection. -/
abbrev opsTail8 : List (HloOp τ sig (Elt F)) :=
  ( StableHlo.TRef.unary (.of main_v81 : StableHlo.TRef sig ⟨S1x4096x1, .i1⟩) main_call8.v0 (broadcastInDim S512x4096x32 ![0, 1, 2] bcast_S1x4096x1_S512x4096x32_0_1_2)
  :: StableHlo.TRef.ternary main_call8.v0 (.of main_v80 : StableHlo.TRef sig ⟨S512x4096x32, .f32⟩) (.of main_v83 : StableHlo.TRef sig ⟨S512x4096x32, .f32⟩) main_call8.v1 select
  :: [] )
theorem opsTail8_sub : (opsTail8 : List (HloOp τ sig (Elt F))).Forall fun op => op.bufs ⊆ tcRefs τ sig :=
  ⟨unary_bufs_sub .., ternary_bufs_sub ..⟩
theorem opsTail8_fresh : (opsTail8 : List (HloOp τ sig (Elt F))).Forall fun op => op.fresh = ∅ :=
  ⟨rfl, rfl⟩

theorem opsTail6_eq : (opsTail6 : List (HloOp τ sig (Elt F))) = opsTail6a ++ opsTail6b := rfl

/-- Everything after the network's output: the nine pieces in order (131 operations). -/
abbrev opsTail : List (HloOp τ sig (Elt F)) :=
  opsTail0 ++ opsTail1 ++ opsTail2 ++ opsTail3 ++ opsTail4 ++ opsTail5 ++ opsTail6 ++ opsTail7 ++ opsTail8

/-- The whole program: the network, then the tail (168 operations). -/
abbrev ops : List (HloOp τ sig (Elt F)) := opsHead ++ opsTail

theorem opsTail_sub : (opsTail : List (HloOp τ sig (Elt F))).Forall fun op => op.bufs ⊆ tcRefs τ sig :=
  forall_append (forall_append (forall_append (forall_append (forall_append (forall_append (forall_append (forall_append
    opsTail0_sub opsTail1_sub) opsTail2_sub) opsTail3_sub) opsTail4_sub) opsTail5_sub) opsTail6_sub) opsTail7_sub) opsTail8_sub

theorem ops_sub : (ops : List (HloOp τ sig (Elt F))).Forall fun op => op.bufs ⊆ tcRefs τ sig :=
  forall_append opsHead_sub opsTail_sub

/-- Every operation determines what it writes. -/
theorem ops_fresh : (ops : List (HloOp τ sig (Elt F))).Forall fun op => op.fresh = ∅ :=
  forall_append opsHead_fresh (forall_append (forall_append (forall_append (forall_append (forall_append (forall_append (forall_append (forall_append
    opsTail0_fresh opsTail1_fresh) opsTail2_fresh) opsTail3_fresh) opsTail4_fresh) opsTail5_fresh) opsTail6_fresh) opsTail7_fresh) opsTail8_fresh)

/-! ## The program is the list -/

-- a window's sixty statements with the callees' bodies unfolded: one chain of some hundred binds to re-associate
set_option maxRecDepth 4096 in
set_option maxHeartbeats 4000000 in
/-- The program's first window is the network and the tail's first six pieces and twelve operations: the callees'
    definitions unfolded at their calls, both sides are one chain of steps once sequencing is re-associated. -/
theorem part0_eq (c : Dev nD) :
    main_part0 (F := F) c = seq (opsHead ++ opsTail0 ++ opsTail1 ++ opsTail2 ++ opsTail3 ++ opsTail4 ++ opsTail5 ++ opsTail6a) := by
  simp only [seq_append]
  simp only [main_part0, fn_relu.body, fn_relu_0.body, fn_floor_divide.body, fn_where.body, fn_remainder.body, fn_where_1.body,
    seq, bind_assoc, pure_bind]
  rfl

set_option maxRecDepth 4096 in
set_option maxHeartbeats 4000000 in
/-- The second window is the rest. -/
theorem part1_eq (c : Dev nD) : main_part1 (F := F) c = seq (opsTail6b ++ opsTail7 ++ opsTail8) := by
  simp only [seq_append]
  simp only [main_part1, fn_where_2.body, seq, bind_assoc, pure_bind]

/-- The program is its 168 operations run in order. -/
theorem main_eq (c : Dev nD) : main (F := F) c = seq ops := by
  have h : (ops : List (HloOp τ sig (Elt F)))
      = (opsHead ++ opsTail0 ++ opsTail1 ++ opsTail2 ++ opsTail3 ++ opsTail4 ++ opsTail5 ++ opsTail6a) ++ (opsTail6b ++ opsTail7 ++ opsTail8) := by
    show opsHead ++ (opsTail0 ++ opsTail1 ++ opsTail2 ++ opsTail3 ++ opsTail4 ++ opsTail5 ++ opsTail6 ++ opsTail7 ++ opsTail8) = _
    rw [opsTail6_eq]
    simp only [List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The run -/

/-- At the compiled mesh, for any float values, from any memory with zero counters: every weakly fair execution of the
    program terminates, and every final state has each array at the fold of the operations over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The whole fold is the tail's after the network's. -/
theorem after_ops (V : Valuation τ sig (Elt F)) : after ops V = after opsTail (after opsHead V) :=
  after_append opsHead opsTail V

/-- The tail's fold, piece by piece. -/
theorem after_opsTail (V : Valuation τ sig (Elt F)) :
    after opsTail V = after opsTail8 (after opsTail7 (after opsTail6 (after opsTail5 (after opsTail4 (after opsTail3
      (after opsTail2 (after opsTail1 (after opsTail0 V)))))))) := by
  simp only [opsTail, after_append]

end Cert.ReferenceIdeal.RefValue

end
-- ==== Proof.RefValue.lean ====
/-
  What the reference computes up to the network's output, and that it never touches its inputs.

  The reference's first 37 operations are a six-layer network on the input x reshaped to 512×8192:
  max(x·w1 + b1, 0), max(·w2 + b2, 0), ·w3 + b3, max(·w4 + b4, 0), max(·w5 + b5, 0), ·w6 + b6, where a product is
  the sum over the contracted index of the products of entries and a bias vector is added to every row. On the
  extended reals the host's product is that plain sum, and the reference's spelling of the bias (the vector broadcast
  to a 1×n row, the row to the r×n array, then added) and of the clamp (the maximum with a broadcast zero) are the
  functions `Cert.Layers.affine` and `Cert.Layers.dense`; so the array the 37th operation writes, `main_v28`, is
  `Cert.Layers.mlp` of the reshaped input and the twelve parameter arrays as they were at the start: `head_value`.
  It is read off in two steps: the fold of the 37 operations at `main_v28` is the composed term `netTerm` of the
  initial contents (each operation's result at its own array, any other array unchanged: `head_clean`), and that term
  is the network, layer by layer (`netTerm_eq`).

  No operation of the program writes one of its thirteen argument arrays, so each holds at the end (and after the
  network part alone, and across the tail alone) what it held at the start: `argK_kept`, `argK_kept_head`,
  `argK_kept_tail`.
-/
import proofs.«127527_j4939212390683_1_alg».proof.Proof.RefOps
import proofs.«127527_j4939212390683_1_alg».proof.Proof.Layers

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Layers Cert.Lib.MatProd Cert.Lib.BiasRelu

/-! ## The arguments are never written -/

section Kept

variable {F : FTy → Type} [FloatOps F]

/-- Argument 0 across the network part, across the tail, and across the whole program: no operation writes it. -/
theorem arg0_kept_head (V : Valuation τ sig (Elt F)) :
    after opsHead V (Proc.devRef .tc main_arg0) = V (Proc.devRef .tc main_arg0) := by
  after_results_simp
theorem arg0_kept_tail (V : Valuation τ sig (Elt F)) :
    after opsTail V (Proc.devRef .tc main_arg0) = V (Proc.devRef .tc main_arg0) := by
  rw [after_opsTail]
  after_results_simp
theorem arg0_kept (V : Valuation τ sig (Elt F)) :
    after ops V (Proc.devRef .tc main_arg0) = V (Proc.devRef .tc main_arg0) := by
  rw [after_ops, arg0_kept_tail, arg0_kept_head]

/-- Argument 1 across the network part, across the tail, and across the whole program: no operation writes it. -/
theorem arg1_kept_head (V : Valuation τ sig (Elt F)) :
    after opsHead V (Proc.devRef .tc main_arg1) = V (Proc.devRef .tc main_arg1) := by
  after_results_simp
theorem arg1_kept_tail (V : Valuation τ sig (Elt F)) :
    after opsTail V (Proc.devRef .tc main_arg1) = V (Proc.devRef .tc main_arg1) := by
  rw [after_opsTail]
  after_results_simp
theorem arg1_kept (V : Valuation τ sig (Elt F)) :
    after ops V (Proc.devRef .tc main_arg1) = V (Proc.devRef .tc main_arg1) := by
  rw [after_ops, arg1_kept_tail, arg1_kept_head]

/-- Argument 2 across the network part, across the tail, and across the whole program: no operation writes it. -/
theorem arg2_kept_head (V : Valuation τ sig (Elt F)) :
    after opsHead V (Proc.devRef .tc main_arg2) = V (Proc.devRef .tc main_arg2) := by
  after_results_simp
theorem arg2_kept_tail (V : Valuation τ sig (Elt F)) :
    after opsTail V (Proc.devRef .tc main_arg2) = V (Proc.devRef .tc main_arg2) := by
  rw [after_opsTail]
  after_results_simp
theorem arg2_kept (V : Valuation τ sig (Elt F)) :
    after ops V (Proc.devRef .tc main_arg2) = V (Proc.devRef .tc main_arg2) := by
  rw [after_ops, arg2_kept_tail, arg2_kept_head]

/-- Argument 3 across the network part, across the tail, and across the whole program: no operation writes it. -/
theorem arg3_kept_head (V : Valuation τ sig (Elt F)) :
    after opsHead V (Proc.devRef .tc main_arg3) = V (Proc.devRef .tc main_arg3) := by
  after_results_simp
theorem arg3_kept_tail (V : Valuation τ sig (Elt F)) :
    after opsTail V (Proc.devRef .tc main_arg3) = V (Proc.devRef .tc main_arg3) := by
  rw [after_opsTail]
  after_results_simp
theorem arg3_kept (V : Valuation τ sig (Elt F)) :
    after ops V (Proc.devRef .tc main_arg3) = V (Proc.devRef .tc main_arg3) := by
  rw [after_ops, arg3_kept_tail, arg3_kept_head]

/-- Argument 4 across the network part, across the tail, and across the whole program: no operation writes it. -/
theorem arg4_kept_head (V : Valuation τ sig (Elt F)) :
    after opsHead V (Proc.devRef .tc main_arg4) = V (Proc.devRef .tc main_arg4) := by
  after_results_simp
theorem arg4_kept_tail (V : Valuation τ sig (Elt F)) :
    after opsTail V (Proc.devRef .tc main_arg4) = V (Proc.devRef .tc main_arg4) := by
  rw [after_opsTail]
  after_results_simp
theorem arg4_kept (V : Valuation τ sig (Elt F)) :
    after ops V (Proc.devRef .tc main_arg4) = V (Proc.devRef .tc main_arg4) := by
  rw [after_ops, arg4_kept_tail, arg4_kept_head]

/-- Argument 5 across the network part, across the tail, and across the whole program: no operation writes it. -/
theorem arg5_kept_head (V : Valuation τ sig (Elt F)) :
    after opsHead V (Proc.devRef .tc main_arg5) = V (Proc.devRef .tc main_arg5) := by
  after_results_simp
theorem arg5_kept_tail (V : Valuation τ sig (Elt F)) :
    after opsTail V (Proc.devRef .tc main_arg5) = V (Proc.devRef .tc main_arg5) := by
  rw [after_opsTail]
  after_results_simp
theorem arg5_kept (V : Valuation τ sig (Elt F)) :
    after ops V (Proc.devRef .tc main_arg5) = V (Proc.devRef .tc main_arg5) := by
  rw [after_ops, arg5_kept_tail, arg5_kept_head]

/-- Argument 6 across the network part, across the tail, and across the whole program: no operation writes it. -/
theorem arg6_kept_head (V : Valuation τ sig (Elt F)) :
    after opsHead V (Proc.devRef .tc main_arg6) = V (Proc.devRef .tc main_arg6) := by
  after_results_simp
theorem arg6_kept_tail (V : Valuation τ sig (Elt F)) :
    after opsTail V (Proc.devRef .tc main_arg6) = V (Proc.devRef .tc main_arg6) := by
  rw [after_opsTail]
  after_results_simp
theorem arg6_kept (V : Valuation τ sig (Elt F)) :
    after ops V (Proc.devRef .tc main_arg6) = V (Proc.devRef .tc main_arg6) := by
  rw [after_ops, arg6_kept_tail, arg6_kept_head]

/-- Argument 7 across the network part, across the tail, and across the whole program: no operation writes it. -/
theorem arg7_kept_head (V : Valuation τ sig (Elt F)) :
    after opsHead V (Proc.devRef .tc main_arg7) = V (Proc.devRef .tc main_arg7) := by
  after_results_simp
theorem arg7_kept_tail (V : Valuation τ sig (Elt F)) :
    after opsTail V (Proc.devRef .tc main_arg7) = V (Proc.devRef .tc main_arg7) := by
  rw [after_opsTail]
  after_results_simp
theorem arg7_kept (V : Valuation τ sig (Elt F)) :
    after ops V (Proc.devRef .tc main_arg7) = V (Proc.devRef .tc main_arg7) := by
  rw [after_ops, arg7_kept_tail, arg7_kept_head]

/-- Argument 8 across the network part, across the tail, and across the whole program: no operation writes it. -/
theorem arg8_kept_head (V : Valuation τ sig (Elt F)) :
    after opsHead V (Proc.devRef .tc main_arg8) = V (Proc.devRef .tc main_arg8) := by
  after_results_simp
theorem arg8_kept_tail (V : Valuation τ sig (Elt F)) :
    after opsTail V (Proc.devRef .tc main_arg8) = V (Proc.devRef .tc main_arg8) := by
  rw [after_opsTail]
  after_results_simp
theorem arg8_kept (V : Valuation τ sig (Elt F)) :
    after ops V (Proc.devRef .tc main_arg8) = V (Proc.devRef .tc main_arg8) := by
  rw [after_ops, arg8_kept_tail, arg8_kept_head]

/-- Argument 9 across the network part, across the tail, and across the whole program: no operation writes it. -/
theorem arg9_kept_head (V : Valuation τ sig (Elt F)) :
    after opsHead V (Proc.devRef .tc main_arg9) = V (Proc.devRef .tc main_arg9) := by
  after_results_simp
theorem arg9_kept_tail (V : Valuation τ sig (Elt F)) :
    after opsTail V (Proc.devRef .tc main_arg9) = V (Proc.devRef .tc main_arg9) := by
  rw [after_opsTail]
  after_results_simp
theorem arg9_kept (V : Valuation τ sig (Elt F)) :
    after ops V (Proc.devRef .tc main_arg9) = V (Proc.devRef .tc main_arg9) := by
  rw [after_ops, arg9_kept_tail, arg9_kept_head]

/-- Argument 10 across the network part, across the tail, and across the whole program: no operation writes it. -/
theorem arg10_kept_head (V : Valuation τ sig (Elt F)) :
    after opsHead V (Proc.devRef .tc main_arg10) = V (Proc.devRef .tc main_arg10) := by
  after_results_simp
theorem arg10_kept_tail (V : Valuation τ sig (Elt F)) :
    after opsTail V (Proc.devRef .tc main_arg10) = V (Proc.devRef .tc main_arg10) := by
  rw [after_opsTail]
  after_results_simp
theorem arg10_kept (V : Valuation τ sig (Elt F)) :
    after ops V (Proc.devRef .tc main_arg10) = V (Proc.devRef .tc main_arg10) := by
  rw [after_ops, arg10_kept_tail, arg10_kept_head]

/-- Argument 11 across the network part, across the tail, and across the whole program: no operation writes it. -/
theorem arg11_kept_head (V : Valuation τ sig (Elt F)) :
    after opsHead V (Proc.devRef .tc main_arg11) = V (Proc.devRef .tc main_arg11) := by
  after_results_simp
theorem arg11_kept_tail (V : Valuation τ sig (Elt F)) :
    after opsTail V (Proc.devRef .tc main_arg11) = V (Proc.devRef .tc main_arg11) := by
  rw [after_opsTail]
  after_results_simp
theorem arg11_kept (V : Valuation τ sig (Elt F)) :
    after ops V (Proc.devRef .tc main_arg11) = V (Proc.devRef .tc main_arg11) := by
  rw [after_ops, arg11_kept_tail, arg11_kept_head]

/-- Argument 12 across the network part, across the tail, and across the whole program: no operation writes it. -/
theorem arg12_kept_head (V : Valuation τ sig (Elt F)) :
    after opsHead V (Proc.devRef .tc main_arg12) = V (Proc.devRef .tc main_arg12) := by
  after_results_simp
theorem arg12_kept_tail (V : Valuation τ sig (Elt F)) :
    after opsTail V (Proc.devRef .tc main_arg12) = V (Proc.devRef .tc main_arg12) := by
  rw [after_opsTail]
  after_results_simp
theorem arg12_kept (V : Valuation τ sig (Elt F)) :
    after ops V (Proc.devRef .tc main_arg12) = V (Proc.devRef .tc main_arg12) := by
  rw [after_ops, arg12_kept_tail, arg12_kept_head]

end Kept

/-! ## The network's output -/

/-- The network as the reference spells it, on the extended reals, as a function of the input and the twelve
    parameter arrays: the input reshaped to 512×8192, then per layer the host's product, the bias vector broadcast to a
    row and the row to the array, the sum, and (layers 1, 2, 4, 5) the maximum with a broadcast zero. -/
def netTerm (a0 : FVec Ideal S512x256x32 .f32) (w1 : FVec Ideal S8192x1024 .f32) (b1 : FVec Ideal S1024 .f32) (w2 : FVec Ideal S1024x512 .f32) (b2 : FVec Ideal S512 .f32) (w3 : FVec Ideal S512x256 .f32) (b3 : FVec Ideal S256 .f32) (w4 : FVec Ideal S256x512 .f32) (b4 : FVec Ideal S512 .f32) (w5 : FVec Ideal S512x1024 .f32) (b5 : FVec Ideal S1024 .f32) (w6 : FVec Ideal S1024x131072 .f32) (b6 : FVec Ideal S131072 .f32) : FVec Ideal S512x131072 .f32 :=
  addf (FloatOps.dotGeneral dot_S512x1024_S1024x131072_S512x131072_1_0_0_1_n_n none .single (maximumf (addf (FloatOps.dotGeneral dot_S512x512_S512x1024_S512x1024_1_0_0_1_n_n none .single (maximumf (addf (FloatOps.dotGeneral dot_S512x256_S256x512_S512x512_1_0_0_1_n_n none .single (addf (FloatOps.dotGeneral dot_S512x512_S512x256_S512x256_1_0_0_1_n_n none .single (maximumf (addf (FloatOps.dotGeneral dot_S512x1024_S1024x512_S512x512_1_0_0_1_n_n none .single (maximumf (addf (FloatOps.dotGeneral dot_S512x8192_S8192x1024_S512x1024_1_0_0_1_n_n none .single (shapeCast S512x8192 a0 shapeCasts_S512x256x32_S512x8192) w1) (broadcastInDim S512x1024 ![0, 1] bcast_S1x1024_S512x1024_0_1 (broadcastInDim S1x1024 ![1] bcast_S1024_S1x1024_1 b1))) (broadcastInDim S512x1024 ![] bcast_S_S512x1024 (constant S_ .f32 0x00000000#32))) w2) (broadcastInDim S512x512 ![0, 1] bcast_S1x512_S512x512_0_1 (broadcastInDim S1x512 ![1] bcast_S512_S1x512_1 b2))) (broadcastInDim S512x512 ![] bcast_S_S512x512 (constant S_ .f32 0x00000000#32))) w3) (broadcastInDim S512x256 ![0, 1] bcast_S1x256_S512x256_0_1 (broadcastInDim S1x256 ![1] bcast_S256_S1x256_1 b3))) w4) (broadcastInDim S512x512 ![0, 1] bcast_S1x512_S512x512_0_1 (broadcastInDim S1x512 ![1] bcast_S512_S1x512_1 b4))) (broadcastInDim S512x512 ![] bcast_S_S512x512 (constant S_ .f32 0x00000000#32))) w5) (broadcastInDim S512x1024 ![0, 1] bcast_S1x1024_S512x1024_0_1 (broadcastInDim S1x1024 ![1] bcast_S1024_S1x1024_1 b5))) (broadcastInDim S512x1024 ![] bcast_S_S512x1024 (constant S_ .f32 0x00000000#32))) w6) (broadcastInDim S512x131072 ![0, 1] bcast_S1x131072_S512x131072_0_1 (broadcastInDim S1x131072 ![1] bcast_S131072_S1x131072_1 b6))

/-- That spelling is the six layers: each host product is the plain matrix product, each bias-and-maximum a layer with
    the clamp, each bias alone a layer without it. -/
theorem netTerm_eq (a0 : FVec Ideal S512x256x32 .f32) (w1 : FVec Ideal S8192x1024 .f32) (b1 : FVec Ideal S1024 .f32) (w2 : FVec Ideal S1024x512 .f32) (b2 : FVec Ideal S512 .f32) (w3 : FVec Ideal S512x256 .f32) (b3 : FVec Ideal S256 .f32) (w4 : FVec Ideal S256x512 .f32) (b4 : FVec Ideal S512 .f32) (w5 : FVec Ideal S512x1024 .f32) (b5 : FVec Ideal S1024 .f32) (w6 : FVec Ideal S1024x131072 .f32) (b6 : FVec Ideal S131072 .f32) :
    netTerm a0 w1 b1 w2 b2 w3 b3 w4 b4 w5 b5 w6 b6 = mlp (shapeCast S512x8192 a0 shapeCasts_S512x256x32_S512x8192) w1 b1 w2 b2 w3 b3 w4 b4 w5 b5 w6 b6 := by
  unfold netTerm
  rw [dotGeneral_eq_matProd dot_S512x8192_S8192x1024_S512x1024_1_0_0_1_n_n rfl rfl rfl rfl rfl rfl,
    dotGeneral_eq_matProd dot_S512x1024_S1024x512_S512x512_1_0_0_1_n_n rfl rfl rfl rfl rfl rfl,
    dotGeneral_eq_matProd dot_S512x512_S512x256_S512x256_1_0_0_1_n_n rfl rfl rfl rfl rfl rfl,
    dotGeneral_eq_matProd dot_S512x256_S256x512_S512x512_1_0_0_1_n_n rfl rfl rfl rfl rfl rfl,
    dotGeneral_eq_matProd dot_S512x512_S512x1024_S512x1024_1_0_0_1_n_n rfl rfl rfl rfl rfl rfl,
    dotGeneral_eq_matProd dot_S512x1024_S1024x131072_S512x131072_1_0_0_1_n_n rfl rfl rfl rfl rfl rfl]
  rw [host_eq, host_eq, host_eq, host_eq, host_bias, host_bias]
  rfl

set_option maxHeartbeats 400000 in
/-- The fold of the 37 operations at the network's output is that term of the initial contents: each operation's
    result at its own array is its function of its operands' contents, and the casts the outlined maximum's typed
    references carry are the identity. -/
theorem head_clean (V : Valuation τ sig (Elt Ideal)) :
    after (opsHead (F := Ideal)) V (Proc.devRef .tc main_v28) = netTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_results_simp
  rfl

/-- After the network part, `main_v28` holds the six-layer network of the reshaped input and the twelve parameter
    arrays as they were before it. -/
theorem head_value (V : Valuation τ sig (Elt Ideal)) :
    (after (opsHead (F := Ideal)) V (Proc.devRef .tc main_v28) : FVec Ideal S512x131072 .f32)
      = Cert.Layers.mlp (shapeCast S512x8192 (V (Proc.devRef .tc main_arg0)) shapeCasts_S512x256x32_S512x8192)
          (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (head_clean V).trans (netTerm_eq ..)

end Cert.ReferenceIdeal.RefValue

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.Tails.lean ====
/-
  The two programs end with the same tail.

  After the network's output both programs re-shape it to 512×4096×32 and combine it with gathers of the input along
  the time axis: the same host operations, in the same order, with the same literals, each program over its own
  buffers. What a buffer holds after a line of operations is the composed term of the operations over what the line
  found, so the two results are one function of two inputs — the input array and the network's output — and agree as
  soon as those inputs do. The tail is never opened.
-/
import proofs.«127527_j4939212390683_1_alg».proof.Proof.Gen.KernelIdeal.Frame
import proofs.«127527_j4939212390683_1_alg».proof.Proof.RefOps
import proofs.«127527_j4939212390683_1_alg».proof.Proof.LibTypedRefs
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.Tails

set_option maxHeartbeats 8000000 in
/-- If the two programs' tails start from contents that agree on the input array and on the network's output, they end
    with the same result. -/
theorem tails_agree (VK : Valuation Cert.KernelIdeal.τ Cert.KernelIdeal.sig (Elt Ideal))
    (VR : Valuation Cert.ReferenceIdeal.τ Cert.ReferenceIdeal.sig (Elt Ideal))
    (h0 : (VR (Proc.devRef .tc Cert.ReferenceIdeal.main_arg0) : (⟨3, ![512, 256, 32]⟩ : Shape).Idx → EReal)
      = VK (Proc.devRef .tc Cert.KernelIdeal.main_arg0))
    (h1 : (VR (Proc.devRef .tc Cert.ReferenceIdeal.main_v28) : (⟨2, ![512, 131072]⟩ : Shape).Idx → EReal)
      = VK (Proc.devRef .tc Cert.KernelIdeal.main_v10)) :
    (after (Cert.ReferenceIdeal.RefValue.opsTail8 (F := Ideal)) (after (Cert.ReferenceIdeal.RefValue.opsTail7 (F := Ideal)) (after (Cert.ReferenceIdeal.RefValue.opsTail6 (F := Ideal)) (after (Cert.ReferenceIdeal.RefValue.opsTail5 (F := Ideal)) (after (Cert.ReferenceIdeal.RefValue.opsTail4 (F := Ideal)) (after (Cert.ReferenceIdeal.RefValue.opsTail3 (F := Ideal)) (after (Cert.ReferenceIdeal.RefValue.opsTail2 (F := Ideal)) (after (Cert.ReferenceIdeal.RefValue.opsTail1 (F := Ideal)) (after (Cert.ReferenceIdeal.RefValue.opsTail0 (F := Ideal)) (VR))))))))) (Proc.devRef .tc Cert.ReferenceIdeal.main_v84) : (⟨3, ![512, 4096, 32]⟩ : Shape).Idx → EReal)
      = after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) (VK))))))))) (Proc.devRef .tc Cert.KernelIdeal.main_v66) := by
  after_results_simp
  simp only [Cert.Lib.TypedRefs.ofBuf_toBuf]
  rw [h0, h1]
  rfl

end Cert.Tails

end
-- ==== Proof.lean ====
/-
  The six-layer network computed in two tiled launches against the same network computed by whole-array host
  operations, followed on both sides by the same interpolation tail: equal on the extended reals.

  The kernel program re-shapes the 512×256×32 input to 512×8192 and runs layers 1–5 (8192 → 1024 → 512 → 256 → 512 →
  1024, a bias after each, the maximum with zero after all but the third) in a first launch, 128 rows per grid point,
  then layer 6 (1024 → 131072, bias, no maximum) in a second launch, a 128×8192 tile per grid point. Its changes of
  float format between layers are the identity on the extended reals, and its products into a zero accumulator are
  the plain sums over the contracted index — the reference's dot_general. An entry of a layer depends on one row of
  the layer's input, one column of the weights and one entry of the bias, so every tile a grid point writes is that
  tile of the layer of the whole arrays; the tiles cover each launch's output, which therefore ends holding the
  whole layers' result: the same function `Cert.Layers.mlp` of the thirteen arguments the reference computes. Both
  programs then apply one and the same line of host operations to that array and the input, so they end equal.
  No law that fails at an infinity is used (nothing is distributed, cancelled or re-ordered across a sum), so the
  finiteness of the inputs is never opened. The idealization rewrote nothing, so `preserves` is trivial.
-/
import proofs.«127527_j4939212390683_1_alg».proof.Defs
import proofs.«127527_j4939212390683_1_alg».proof.Proof.Gen.Kernel
import proofs.«127527_j4939212390683_1_alg».proof.Proof.Gen.Kernel.Frame
import proofs.«127527_j4939212390683_1_alg».proof.Proof.Gen.KernelIdeal
import proofs.«127527_j4939212390683_1_alg».proof.Proof.Gen.KernelIdeal.Frame
import proofs.«127527_j4939212390683_1_alg».proof.Proof.Gen.ReferenceIdeal
import proofs.«127527_j4939212390683_1_alg».proof.Proof.Gen.Pre_finite_inputs
import proofs.«127527_j4939212390683_1_alg».proof.Proof.KernelRun
import proofs.«127527_j4939212390683_1_alg».proof.Proof.Boundaries
import proofs.«127527_j4939212390683_1_alg».proof.Proof.RefOps
import proofs.«127527_j4939212390683_1_alg».proof.Proof.RefValue
import proofs.«127527_j4939212390683_1_alg».proof.Proof.Tails
import Idealize.ShloMosaic.Adequacy
import Idealize.ShloMosaic.Init

noncomputable section

namespace Cert.Proof

open Idealize.ShloMosaic Idealize.ShloMosaic.TcCoe Idealize.SL.Sem Idealize.ShloMosaic.StableHlo

/-- The network is a function: equal arguments give equal outputs. -/
theorem mlp_congr {r : Nat} {x x' : (⟨2, ![r, 8192]⟩ : Shape).Idx → EReal}
    {w1 w1' : (⟨2, ![8192, 1024]⟩ : Shape).Idx → EReal} {b1 b1' : (⟨1, ![1024]⟩ : Shape).Idx → EReal}
    {w2 w2' : (⟨2, ![1024, 512]⟩ : Shape).Idx → EReal} {b2 b2' : (⟨1, ![512]⟩ : Shape).Idx → EReal}
    {w3 w3' : (⟨2, ![512, 256]⟩ : Shape).Idx → EReal} {b3 b3' : (⟨1, ![256]⟩ : Shape).Idx → EReal}
    {w4 w4' : (⟨2, ![256, 512]⟩ : Shape).Idx → EReal} {b4 b4' : (⟨1, ![512]⟩ : Shape).Idx → EReal}
    {w5 w5' : (⟨2, ![512, 1024]⟩ : Shape).Idx → EReal} {b5 b5' : (⟨1, ![1024]⟩ : Shape).Idx → EReal}
    {w6 w6' : (⟨2, ![1024, 131072]⟩ : Shape).Idx → EReal} {b6 b6' : (⟨1, ![131072]⟩ : Shape).Idx → EReal}
    (hx : x = x') (h1 : w1 = w1') (g1 : b1 = b1') (h2 : w2 = w2') (g2 : b2 = b2') (h3 : w3 = w3') (g3 : b3 = b3')
    (h4 : w4 = w4') (g4 : b4 = b4') (h5 : w5 = w5') (g5 : b5 = b5') (h6 : w6 = w6') (g6 : b6 = b6') :
    Cert.Layers.mlp x w1 b1 w2 b2 w3 b3 w4 b4 w5 b5 w6 b6 = Cert.Layers.mlp x' w1' b1' w2' b2' w3' b3' w4' b4' w5' b5' w6' b6' := by
  subst hx h1 g1 h2 g2 h3 g3 h4 g4 h5 g5 h6 g6
  rfl

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations none of which writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _),
     (h c Cert.ReferenceIdeal.main_arg6).trans (Cert.ReferenceIdeal.RefValue.arg6_kept _),
     (h c Cert.ReferenceIdeal.main_arg7).trans (Cert.ReferenceIdeal.RefValue.arg7_kept _),
     (h c Cert.ReferenceIdeal.main_arg8).trans (Cert.ReferenceIdeal.RefValue.arg8_kept _),
     (h c Cert.ReferenceIdeal.main_arg9).trans (Cert.ReferenceIdeal.RefValue.arg9_kept _),
     (h c Cert.ReferenceIdeal.main_arg10).trans (Cert.ReferenceIdeal.RefValue.arg10_kept _),
     (h c Cert.ReferenceIdeal.main_arg11).trans (Cert.ReferenceIdeal.RefValue.arg11_kept _),
     (h c Cert.ReferenceIdeal.main_arg12).trans (Cert.ReferenceIdeal.RefValue.arg12_kept _)⟩)
    (Cert.ReferenceIdeal.RefValue.run_main (F := Ideal) m ρ)

/-- The idealization rewrote no operation. -/
theorem preserves : Cert.preserves_Kernel_KernelIdeal := trivial

/-- From memories agreeing on the arguments both idealized programs end with the same result: the shared tail of the
    same network's output and the same input. -/
theorem algebraic : Cert.algebraic_KernelIdeal_ReferenceIdeal := by
  intro m ρ m' ρ' _ hagree
  refine ⟨fun c => Cert.KernelIdeal.Gen.W13 m ρ c (Proc.devRef .tc Cert.KernelIdeal.main_v66),
    Cert.KernelIdeal.Blocks.resultRun (F := Ideal) m ρ, ?_⟩
  refine (θ_run Cert.ReferenceIdeal.defs _ _).mono (fun _ h c => ?_)
    (Cert.ReferenceIdeal.RefValue.run_main (F := Ideal) m' ρ')
  obtain ⟨a0, a1, a2, a3, a4, a5, a6, a7, a8, a9, a10, a11, a12⟩ := hagree c
  refine ⟨(h c Cert.ReferenceIdeal.main_v84).trans ?_,
     (h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _),
     (h c Cert.ReferenceIdeal.main_arg6).trans (Cert.ReferenceIdeal.RefValue.arg6_kept _),
     (h c Cert.ReferenceIdeal.main_arg7).trans (Cert.ReferenceIdeal.RefValue.arg7_kept _),
     (h c Cert.ReferenceIdeal.main_arg8).trans (Cert.ReferenceIdeal.RefValue.arg8_kept _),
     (h c Cert.ReferenceIdeal.main_arg9).trans (Cert.ReferenceIdeal.RefValue.arg9_kept _),
     (h c Cert.ReferenceIdeal.main_arg10).trans (Cert.ReferenceIdeal.RefValue.arg10_kept _),
     (h c Cert.ReferenceIdeal.main_arg11).trans (Cert.ReferenceIdeal.RefValue.arg11_kept _),
     (h c Cert.ReferenceIdeal.main_arg12).trans (Cert.ReferenceIdeal.RefValue.arg12_kept _)⟩
  rw [Cert.ReferenceIdeal.RefValue.after_ops, Cert.ReferenceIdeal.RefValue.after_opsTail]
  refine Cert.Tails.tails_agree (Cert.KernelIdeal.Gen.W4 m ρ c) _ ?_ ?_
  · -- the input array: as launched on both sides
    exact (Cert.ReferenceIdeal.RefValue.arg0_kept_head _).trans (a0.trans (Cert.KernelIdeal.Blocks.inputKept m ρ c).symm)
  · -- the network's output: the same function of arguments that agree
    have hx : (shapeCast Cert.ReferenceIdeal.S512x8192
          (m' ((c.tc : Thread Cert.ReferenceIdeal.nD Cert.ReferenceIdeal.τ).loc Cert.ReferenceIdeal.main_arg0))
          Cert.ReferenceIdeal.Facts₀.shapeCasts_S512x256x32_S512x8192 : (⟨2, ![512, 8192]⟩ : Shape).Idx → EReal)
        = shapeCast Cert.KernelIdeal.S512x8192
          (m ((c.tc : Thread Cert.KernelIdeal.nD Cert.KernelIdeal.τ).loc Cert.KernelIdeal.main_arg0))
          Cert.KernelIdeal.Facts₀.shapeCasts_S512x256x32_S512x8192 :=
      congrArg (fun a : (⟨3, ![512, 256, 32]⟩ : Shape).Idx → EReal =>
        shapeCast (⟨2, ![512, 8192]⟩ : Shape) a Cert.KernelIdeal.Facts₀.shapeCasts_S512x256x32_S512x8192) a0
    exact (Cert.ReferenceIdeal.RefValue.head_value _).trans
      ((mlp_congr hx a1 a2 a3 a4 a5 a6 a7 a8 a9 a10 a11 a12).trans (Cert.KernelIdeal.Blocks.networkOutput m ρ c).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
